-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S256x4096 : Shape := ⟨2, ![256, 4096]⟩
abbrev S256x64 : Shape := ⟨2, ![256, 64]⟩
abbrev S256x64x1 : Shape := ⟨3, ![256, 64, 1]⟩
abbrev S256x64x64 : Shape := ⟨3, ![256, 64, 64]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩
abbrev S2048x16 : Shape := ⟨2, ![2048, 16]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4096x4096, .bf16⟩
  | .hbm, ⟨7, _⟩ => ⟨S8192x4096, .f32⟩
  | .hbm, ⟨8, _⟩ => ⟨S8192x4096, .bf16⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S256x4096, .bf16⟩
  | .local _ .vmem, ⟨5, _⟩ => ⟨S256x4096, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S16x1024, .f32⟩
  | .local _ .vmem, ⟨11, _⟩ => ⟨S16x1024, .f32⟩
  | .local _ .vmem, ⟨12, _⟩ => ⟨S1024x16, .f32⟩
  | .local _ .vmem, ⟨13, _⟩ => ⟨S1024x16, .f32⟩
  | .local _ .vmem, ⟨14, _⟩ => ⟨S1x1024, .f32⟩
  | .local _ .vmem, ⟨15, _⟩ => ⟨S1x1024, .f32⟩
  | .local _ .vmem, ⟨16, _⟩ => ⟨S2048x1024, .f32⟩
  | .local _ .vmem, ⟨17, _⟩ => ⟨S2048x1024, .f32⟩
  | .local _ .vmem, ⟨18, _⟩ => ⟨S2048x1024, .f32⟩
  | .local _ .vmem, ⟨19, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  broadcasts_S256x64x1_S256x64x64 : S256x64x1.Broadcasts S256x64x64
  shapeCasts_S256x64x64_S256x4096 : S256x64x64.ShapeCasts S256x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  dot_S2048x1024_S16x1024_S2048x16_1_1_0_0_n_n_wf : DotDims.WF S2048x1024 S16x1024 S2048x16 [1] [1] [0] [0] [] []
  dot_S2048x16_S1024x16_S2048x1024_1_1_0_0_n_n_wf : DotDims.WF S2048x16 S1024x16 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1024.size a ≤ S16x4096.size a
  hwx1_2 : ∀ i : grid1.Coords, EltTy.bits .f32 = 32 ∨ (Rect.block (s := S16x4096) S16x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S4096x16.size a
  hwx1_3 : ∀ i : grid1.Coords, EltTy.bits .f32 = 32 ∨ (Rect.block (s := S4096x16) S1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S8192x4096.size a
  hwx1_5 : ∀ i : grid1.Coords, EltTy.bits .f32 = 32 ∨ (Rect.block (s := S8192x4096) S2048x1024.size (cc1_transform_5 i) (hinb1_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S16x1024_S2048x16_1_1_0_0_n_n : DotDims S2048x1024 S16x1024 S2048x16 where
  lhsContracting := [1]
  rhsContracting := [1]
  lhsNonContracting := [0]
  rhsNonContracting := [0]
  lhsBatch := []
  rhsBatch := []
  wf := dot_S2048x1024_S16x1024_S2048x16_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S4096x64x64 : Shape := ⟨3, ![4096, 64, 64]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4096x64x64, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x16, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.DeqBody.lean ====
/- The dequantisation region of the program, at a PARAMETER `V`: the buffer contents when the region is entered.

   The region walks the 4096 rows of the integer weights in 16 blocks of 256 rows.  At block `t` it is handed rows
   `256·t … 256·t + 255` of the integers (window 0) and of the per-group scales (window 1), multiplies each integer by
   the scale of its group of 64 columns, and writes the 256 × 4096 products over the whole of the output block
   (window 2).  The output block is also read before it is overwritten; what is read is never used, so the block may
   hold anything when the body starts.

   Here: each window's block at a point as a read of the entry contents, the body's triple, the proof data of the
   pipeline (inputs left in place, the output block at the products of the two input blocks), and the obligation of
   the body at every point. -/
import proofs.«122666_j40604620816621_2_alg».proof.Proof.Gen.KernelIdeal.Launch
import proofs.«122666_j40604620816621_2_alg».proof.Proof.Gen.KernelIdeal.Skeleton
import proofs.«122666_j40604620816621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Deq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the integers holds their block at every point, for any proof data whose array is the
    entry contents and whose body leaves the block in place: an input window that is never idle and never cut. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the staging buffer of the scales. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rInt : Rect S256x4096 := Rect.unit (s := S256x4096) ![0, 0] S256x4096.size inb_S256x4096_S256x4096_0_0
abbrev rScale : Rect S256x64 := Rect.unit (s := S256x64) ![0, 0] S256x64.size inb_S256x64_S256x64_0_0

/-- The offsets of both rectangles are zero on every axis. -/
theorem off_zero : (![0, 0] : Fin 2 → Nat) = fun _ => 0 := by
  funext a; match a with | ⟨0, _⟩ => rfl | ⟨1, _⟩ => rfl

/-- The one store of the body is through the whole output buffer, so it covers it. -/
theorem cover_out (p0 : Vec F S256x4096 .bf16) (y : S256x4096.Idx) :
    ∃ pc ∈ ([⟨rInt, p0⟩] : List (View.Piece (Elt F) S256x4096 .bf16)), y ∈ pc.1.set :=
  ⟨_, List.mem_singleton_self _, View.mem_set_unit_zero off_zero inb_S256x4096_S256x4096_0_0 y⟩

/-! ## The body's triple -/

set_option maxHeartbeats 1000000 in
/-- The body on whole staging memrefs — the integers' at `x0`, the scales' at `x1`, the output's at anything — runs to
    the continuation holding the inputs' as they were and the output's at the products: both loads read their whole
    buffers, the read of the output is dropped, and the one store covers the output buffer. -/
theorem sound_kernel (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (x0 : Vec F S256x4096 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x1 x0)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off_zero]
  simp only [View.readAt_eq_ld, View.ld_unit_zero (S := S256x64) off_zero, View.ld_unit_zero (S := S256x4096) off_zero]

/-! ## The pipeline's proof data -/

/-- The proof data of the region on core `c`: the arrays as the region finds them; after the body at point `t` the two
    inputs' buffers at their blocks and the output's at the products of the two blocks; the invariant the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 1 t) (iblk V c 0 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 1 t) (iblk V c 0 t) := by dsimp only [dat]

/-- The invariant is the same at every point. -/
theorem Phi_eq (c : Dev nD) (t : Fin (cfg0.N + 1)) : (dat V c).Φ t = Pipeline.ΦA spec0 c := rfl

/-- Each input's staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, the output's holds something, so the body's triple
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Deq

end
-- ==== Proof.AccRuns.lean ====
/-
  The product kernel (region 1) on its grid of 4 x 4 x 4 points (i, j, k), k the innermost coordinate:
  point t has k = t mod 4.  The body keeps two accumulators in scratch memory across the four points
  of one (i, j): the partial product  x(i,k) · w(j,k)ᵀ  summed over k, and the partial low-rank
  activation  x(i,k) · A(k)ᵀ  summed over k.  It clears both at k = 0, adds one block's product to each
  at every k, and at k = 3 stores  (acc + bias row) + 2 · (a · B(j)ᵀ)  into the output block.

  This module fixes the vocabulary of that region: a window's block at a point, read off the arrays as
  the region finds them; the fact that an input's staging buffer holds its block at every point (also at
  the points where it is not fetched again, because its block index did not move); the two branch
  conditions as residues of t mod 4; where the output window is idle; the scratch memrefs; and the
  region's resting invariant (the scoped buffers no window stages, and the generator register) spelled
  out buffer by buffer.
-/
import proofs.«122666_j40604620816621_2_alg».proof.Proof.Gen.KernelIdeal.Launch
import proofs.«122666_j40604620816621_2_alg».proof.Proof.Gen.KernelIdeal.Skeleton
import proofs.«122666_j40604620816621_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## A window's block at a point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not
    fetched its block index has not moved since the point before. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: where it is not
    fetched its block index has not moved since the point before. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: where it is not
    fetched its block index has not moved since the point before. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: where it is not
    fetched its block index has not moved since the point before. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: where it is not
    fetched its block index has not moved since the point before. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end

/-! ## The two branches, by the innermost coordinate -/

/-- The accumulators are cleared: the innermost coordinate is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The output block is stored: the innermost coordinate is 3. -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

/-- The output window is idle, and not written back, wherever the innermost coordinate is not 3. -/
theorem idle5_first : ∀ t : Fin cfg1.N, cond0 (grid1.coords t) → ¬cond1 (grid1.coords t) → cfg1.idle 5 (grid1.coords t) = true := by decide +kernel
theorem noFlush5_first : ∀ t : Fin cfg1.N, cond0 (grid1.coords t) → ¬cond1 (grid1.coords t) → (cfg1.win 5).flush t = false := by decide +kernel
theorem idle5_mid : ∀ t : Fin cfg1.N, ¬cond0 (grid1.coords t) → ¬cond1 (grid1.coords t) → cfg1.idle 5 (grid1.coords t) = true := by decide +kernel
theorem noFlush5_mid : ∀ t : Fin cfg1.N, ¬cond0 (grid1.coords t) → ¬cond1 (grid1.coords t) → (cfg1.win 5).flush t = false := by decide +kernel
/-- and live where it is 3. -/
theorem live5_last : ∀ t : Fin cfg1.N, ¬cond0 (grid1.coords t) → cond1 (grid1.coords t) → cfg1.idle 5 (grid1.coords t) = false := by decide +kernel

/-! ## The memrefs the body is called with -/

abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x1024 .f32 := win1_5.stage (cfg1.slots t 5)
abbrev hs5 (t : Fin cfg1.N) : (ms5 t).IsWhole := hstage1_5 ((cfg1.slots t 5).cast nbuf1_5)
/-- The product accumulator and the low-rank accumulator: whole scoped buffers of the kernel's own. -/
abbrev scA : Memref sig .tc .vmem S2048x1024 .f32 := Memref.whole cc1_scratch0
abbrev scB : Memref sig .tc .vmem S2048x16 .f32 := Memref.whole cc1_scratch1
/-- The same as views: what they hold is stated through these. -/
abbrev VSA : View sig .tc .vmem S2048x1024 .f32 := scA.view
abbrev VSB : View sig .tc .vmem S2048x16 .f32 := scB.view
/-- One staging buffer of the output window, through which its contents are stated. -/
abbrev VO5 : View sig .tc .vmem S2048x1024 .f32 := (Memref.whole cc1_stg5_0 : Memref sig .tc .vmem S2048x1024 .f32).view

/-- The region's resting invariant, buffer by buffer: the six staging buffers of the other region at some
    contents, the two accumulators at some contents, the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scA fullShare d) ∗ (∃ d, owns (c : Thread nD τ) scB fullShare d)) ∗ (∃ r, prngReg c r)) := by
  unfold Pipeline.ΦA; rw [scopedRest1_eq]; simp only [scA, scB, owns_whole]; try rfl

end Cert.KernelIdeal.Acc

end
-- ==== Proof.AccRunFirst.lean ====
/-
  The body at a point whose innermost coordinate is 0.  Both accumulators are first overwritten with
  zeros, then one block's product is added to each; the output buffer, the `B` block and the bias row are
  not touched.  The run is symbolic: the stores that end up in each accumulator are found while running,
  as lists of pieces (a piece is a rectangle of the buffer together with the value stored there), the
  last store first.
-/
import proofs.«122666_j40604620816621_2_alg».proof.Proof.AccRuns

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs it reads at their contents, the two accumulators at anything — the
    body runs to the end, the inputs as they were and each accumulator with its pieces written. -/
noncomputable def runFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32) :
    Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%dA, %fA, -, HA⟩, ⟨%dB, %fB, -, HB⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HB

end Cert.KernelIdeal.Acc

end
-- ==== Proof.AccRunMid.lean ====
/-
  The body at a point whose innermost coordinate is 1 or 2.  Neither branch is taken: one block's product
  is added to each accumulator, which the body finds at what the point before left in it; the output
  buffer, the `B` block and the bias row are not touched.
-/
import proofs.«122666_j40604620816621_2_alg».proof.Proof.AccRunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs it reads at their contents, the two accumulators at the contents
    `xsA`, `xsB` the point before left — the body runs to the end, the inputs as they were and each
    accumulator with its pieces written. -/
noncomputable def runMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32)
    (xsA : Vec F S2048x1024 .f32) (xsB : Vec F S2048x16 .f32) :
    Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg9 fullShare xsA ∗ owns (c : Thread nD τ) arg10 fullShare xsB
            ∗ (iprop(owns (c : Thread nD τ) arg3 fullShare x0 ∗ owns (c : Thread nD τ) arg4 fullShare x1 ∗ owns (c : Thread nD τ) arg5 fullShare x2 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%fA, %hfA, HA⟩, ⟨%fB, %hfB, HB⟩, Hk⟩
    obtain rfl := harg3.eq_unread hf0; obtain rfl := harg4.eq_unread hf1; obtain rfl := harg5.eq_unread hf2
    obtain rfl := harg9.eq_unread hfA; obtain rfl := harg10.eq_unread hfB
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HB

end Cert.KernelIdeal.Acc

end
-- ==== Proof.AccRunLast.lean ====
/-
  The body at a point whose innermost coordinate is 3.  One block's product is added to each accumulator
  as at the points before; then the output block is stored: the product accumulator plus the bias row,
  plus twice the low-rank accumulator times the `B` block transposed.
-/
import proofs.«122666_j40604620816621_2_alg».proof.Proof.AccRunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the five inputs at their contents, the output buffer at anything, the two
    accumulators at the contents the point before left — the body runs to the end, the inputs as they
    were, the output buffer and each accumulator with its pieces written. -/
noncomputable def runLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32)
    (xsA : Vec F S2048x1024 .f32) (xsB : Vec F S2048x16 .f32) :
    Σ' (LO : List (View.Piece (Elt F) S2048x1024 .f32)), Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xsA ∗ owns (c : Thread nD τ) arg10 fullShare xsB
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fA, %hfA, HA⟩, ⟨%fB, %hfB, HB⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfA; obtain rfl := harg10.eq_unread hfB
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    isplitl [HA]; · iexists _; iexact HA
    iexists _; iexact HB

end Cert.KernelIdeal.Acc

end
-- ==== Proof.AccFrame.lean ====
/-
  The product kernel's region, point by point.

  After the body at a point the product accumulator holds, at k = 0, zero plus the first block's product,
  and at k > 0 what the point before left plus this block's product; likewise the low-rank accumulator;
  and at k = 3 the output buffer holds the finished block.  `outsAt` states these three contents by
  recursion on the point.  The region's invariant before a point is, before the first point, the resting
  invariant (both accumulators at anything), and afterwards the same with both accumulators at what the
  point before left.  With these the body's obligation holds at every point: the point's residue mod 4
  says which branch is taken, and each case is that case's symbolic run.
-/
import proofs.«122666_j40604620816621_2_alg».proof.Proof.AccRunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- The pieces stored into the product accumulator cover it. -/
theorem coverAFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  (y : S2048x1024.Idx) :
    ∃ pc ∈ (runFirst c i arg3 harg3 arg4 harg4 arg5 harg5 arg6 harg6 arg7 harg7 arg8 harg8 arg9 harg9 arg10 harg10 hc0 hc1 x0 x1 x2).1, y ∈ pc.1.set :=
  View.cover_of_tiledL (runFirst c i arg3 harg3 arg4 harg4 arg5 harg5 arg6 harg6 arg7 harg7 arg8 harg8 arg9 harg9 arg10 harg10 hc0 hc1 x0 x1 x2).1 S2048x1024.size (by sl_kernel_rfl) y
/-- What the case leaves in the product accumulator. -/
def accFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  : Vec F S2048x1024 .f32 :=
  VSA.read (Elt F) (VSA.writes (Elt F) VSA.junk (runFirst c i arg3 harg3 arg4 harg4 arg5 harg5 arg6 harg6 arg7 harg7 arg8 harg8 arg9 harg9 arg10 harg10 hc0 hc1 x0 x1 x2).1)
/-- The pieces stored into the low-rank accumulator cover it. -/
theorem coverBFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  (y : S2048x16.Idx) :
    ∃ pc ∈ (runFirst c i arg3 harg3 arg4 harg4 arg5 harg5 arg6 harg6 arg7 harg7 arg8 harg8 arg9 harg9 arg10 harg10 hc0 hc1 x0 x1 x2).2.1, y ∈ pc.1.set :=
  View.cover_of_tiledL (runFirst c i arg3 harg3 arg4 harg4 arg5 harg5 arg6 harg6 arg7 harg7 arg8 harg8 arg9 harg9 arg10 harg10 hc0 hc1 x0 x1 x2).2.1 S2048x16.size (by sl_kernel_rfl) y
/-- What the case leaves in the low-rank accumulator. -/
def lowFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  : Vec F S2048x16 .f32 :=
  VSB.read (Elt F) (VSB.writes (Elt F) VSB.junk (runFirst c i arg3 harg3 arg4 harg4 arg5 harg5 arg6 harg6 arg7 harg7 arg8 harg8 arg9 harg9 arg10 harg10 hc0 hc1 x0 x1 x2).2.1)

/-- The pieces stored into the product accumulator cover it. -/
theorem coverAMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) (y : S2048x1024.Idx) :
    ∃ pc ∈ (runMid c i arg3 harg3 arg4 harg4 arg5 harg5 arg6 harg6 arg7 harg7 arg8 harg8 arg9 harg9 arg10 harg10 hc0 hc1 x0 x1 x2 xsA xsB).1, y ∈ pc.1.set :=
  View.cover_of_tiledL (runMid c i arg3 harg3 arg4 harg4 arg5 harg5 arg6 harg6 arg7 harg7 arg8 harg8 arg9 harg9 arg10 harg10 hc0 hc1 x0 x1 x2 xsA xsB).1 S2048x1024.size (by sl_kernel_rfl) y
/-- What the case leaves in the product accumulator. -/
def accMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) : Vec F S2048x1024 .f32 :=
  VSA.read (Elt F) (VSA.writes (Elt F) VSA.junk (runMid c i arg3 harg3 arg4 harg4 arg5 harg5 arg6 harg6 arg7 harg7 arg8 harg8 arg9 harg9 arg10 harg10 hc0 hc1 x0 x1 x2 xsA xsB).1)
/-- The pieces stored into the low-rank accumulator cover it. -/
theorem coverBMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) (y : S2048x16.Idx) :
    ∃ pc ∈ (runMid c i arg3 harg3 arg4 harg4 arg5 harg5 arg6 harg6 arg7 harg7 arg8 harg8 arg9 harg9 arg10 harg10 hc0 hc1 x0 x1 x2 xsA xsB).2.1, y ∈ pc.1.set :=
  View.cover_of_tiledL (runMid c i arg3 harg3 arg4 harg4 arg5 harg5 arg6 harg6 arg7 harg7 arg8 harg8 arg9 harg9 arg10 harg10 hc0 hc1 x0 x1 x2 xsA xsB).2.1 S2048x16.size (by sl_kernel_rfl) y
/-- What the case leaves in the low-rank accumulator. -/
def lowMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) : Vec F S2048x16 .f32 :=
  VSB.read (Elt F) (VSB.writes (Elt F) VSB.junk (runMid c i arg3 harg3 arg4 harg4 arg5 harg5 arg6 harg6 arg7 harg7 arg8 harg8 arg9 harg9 arg10 harg10 hc0 hc1 x0 x1 x2 xsA xsB).2.1)

/-- The pieces stored into the product accumulator cover it. -/
theorem coverALast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 xsA xsB).2.1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).2.1 S2048x1024.size (by sl_kernel_rfl) y
/-- What the case leaves in the product accumulator. -/
def accLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x1024 .f32 :=
  VSA.read (Elt F) (VSA.writes (Elt F) VSA.junk (runLast c i arg3 harg3 arg4 harg4 arg5 harg5 arg6 harg6 arg7 harg7 arg8 harg8 arg9 harg9 arg10 harg10 hc0 hc1 x0 x1 x2 x3 x4 xsA xsB).2.1)
/-- The pieces stored into the low-rank accumulator cover it. -/
theorem coverBLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x16.Idx) :
    ∃ pc ∈ (runLast c i arg3 harg3 arg4 harg4 arg5 harg5 arg6 harg6 arg7 harg7 arg8 harg8 arg9 harg9 arg10 harg10 hc0 hc1 x0 x1 x2 x3 x4 xsA xsB).2.2.1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).2.2.1 S2048x16.size (by sl_kernel_rfl) y
/-- What the case leaves in the low-rank accumulator. -/
def lowLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x16 .f32 :=
  VSB.read (Elt F) (VSB.writes (Elt F) VSB.junk (runLast c i arg3 harg3 arg4 harg4 arg5 harg5 arg6 harg6 arg7 harg7 arg8 harg8 arg9 harg9 arg10 harg10 hc0 hc1 x0 x1 x2 x3 x4 xsA xsB).2.2.1)
/-- The pieces stored into the output buffer cover it. -/
theorem coverOLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 xsA xsB).1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).1 S2048x1024.size (by sl_kernel_rfl) y
/-- What the case leaves in the output buffer. -/
def outLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x1024 .f32 :=
  VO5.read (Elt F) (VO5.writes (Elt F) VO5.junk (runLast c i arg3 harg3 arg4 harg4 arg5 harg5 arg6 harg6 arg7 harg7 arg8 harg8 arg9 harg9 arg10 harg10 hc0 hc1 x0 x1 x2 x3 x4 xsA xsB).1)

/-- At a point that stores nothing into the output buffer its contents are not named: a placeholder that
    nothing consults, since the window is neither written back there nor read at the next point. -/
def outIdle : Vec F S2048x1024 .f32 := VO5.read (Elt F) VO5.junk

section
variable (V : (c : Dev nD) → (b : Ref sig .tc) → Buf (Elt F) ((c : Thread nD τ).loc b))

/-! ## What the buffers hold after each point -/

/-- After the body at position `n`: the output buffer, the product accumulator, the low-rank accumulator. -/
def outsAt (c : Dev nD) : (n : ℕ) → n < cfg1.N → Vec F S2048x1024 .f32 × Vec F S2048x1024 .f32 × Vec F S2048x16 .f32
  | 0, hn =>
    (outIdle,
     accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scA (Memref.isWhole_whole _) scB (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩),
     lowFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scA (Memref.isWhole_whole _) scB (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle,
         accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩),
         lowFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
         lowLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
      else
        (outIdle,
         accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
         lowMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- What the point before `t` left (for `t` not the first point). -/
abbrev prevAt (c : Dev nD) (t : Fin cfg1.N) := outsAt V c (t.val - 1) (Nat.lt_of_le_of_lt (Nat.sub_le _ _) t.isLt)

theorem outsAt_first (c : Dev nD) (t : Fin cfg1.N) (h0 : t.val % 4 = 0) (h1 : ¬t.val % 4 = 3) :
    outsAt V c t.val t.isLt = (outIdle,
      accFirst c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t),
      lowFirst c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg1.N) (h0 : ¬t.val % 4 = 0) (h1 : ¬t.val % 4 = 3) :
    outsAt V c t.val t.isLt = (outIdle,
      accMid c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2,
      lowMid c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (
      outLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2,
      accLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2,
      lowLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the resting invariant; afterwards the other region's staging buffers at
    anything, both accumulators at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c n hn).2.1) ∗ owns (c : Thread nD τ) scB fullShare ((outsAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c n hn).2.1) ∗ owns (c : Thread nD τ) scB fullShare ((outsAt V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c (n - 1) (by omega)).2.1) ∗ owns (c : Thread nD τ) scB fullShare ((outsAt V c (n - 1) (by omega)).2.2)) ∗ (∃ r, prngReg c r)) := by
  cases n with
  | zero => exact absurd rfl hz
  | succ n => rfl

/-! ## The proof data -/

/-- The region's proof data on core `c`: the arrays as the region finds them; after the body each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem live_0 : ∀ t : Fin cfg1.N, cfg1.idle 0 (grid1.coords t) = false := fun _ => rfl
theorem before_1 (c : Dev nD) (t : Fin cfg1.N) (d) : (dat V c).before 1 t d = iblk V c 1 t :=
  before_1_of V (dat V c) (A_eq V c 1) (after_1 V c) t d
theorem live_1 : ∀ t : Fin cfg1.N, cfg1.idle 1 (grid1.coords t) = false := fun _ => rfl
theorem before_2 (c : Dev nD) (t : Fin cfg1.N) (d) : (dat V c).before 2 t d = iblk V c 2 t :=
  before_2_of V (dat V c) (A_eq V c 2) (after_2 V c) t d
theorem live_2 : ∀ t : Fin cfg1.N, cfg1.idle 2 (grid1.coords t) = false := fun _ => rfl
theorem before_3 (c : Dev nD) (t : Fin cfg1.N) (d) : (dat V c).before 3 t d = iblk V c 3 t :=
  before_3_of V (dat V c) (A_eq V c 3) (after_3 V c) t d
theorem live_3 : ∀ t : Fin cfg1.N, cfg1.idle 3 (grid1.coords t) = false := fun _ => rfl
theorem before_4 (c : Dev nD) (t : Fin cfg1.N) (d) : (dat V c).before 4 t d = iblk V c 4 t :=
  before_4_of V (dat V c) (A_eq V c 4) (after_4 V c) t d
theorem live_4 : ∀ t : Fin cfg1.N, cfg1.idle 4 (grid1.coords t) = false := fun _ => rfl

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

end

section
variable (V : (c : Dev nD) → (b : Ref sig .tc) → Buf (Elt F) ((c : Thread nD τ).loc b))

set_option maxHeartbeats 4800000 in
/-- The body at any point.  The inputs' buffers hold their blocks; the residue of the point mod 4 says which
    case it is; the invariant hands the run both accumulators — at anything before the first point, at what
    the point before left otherwise — and takes them back at this point's contents, which cover them; the
    output buffer is handed back untouched where the case stores nothing into it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  by_cases h0 : t.val % 4 = 0
  · by_cases h1 : t.val % 4 = 3
    · exfalso; omega
    · rw [Dat.leavesExact_idle (dat V c) 5 t (idle5_first t ((hcond0 t).mpr h0) (fun h => h1 ((hcond1 t).mp h))) (noFlush5_first t ((hcond0 t).mpr h0) (fun h => h1 ((hcond1 t).mp h)))]
      rw [outsAt_first V c t h0 h1]
      unfold accFirst lowFirst; (try dsimp only)
      by_cases hz : t.val = 0
      · rw [PhiS_castSucc V c t, PhiS_zero V c _ _ hz, PhiA_eq]
        iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
        iapply ((runFirst c (grid1.coords t) _ _ _ _ _ _ _ _ _ _ _ _ _ _ _ _ ((hcond0 t).mpr h0) (fun h => h1 ((hcond1 t).mp h)) (iblk V c 0 t) (iblk V c 1 t) (iblk V c 2 t)).2.2 Set.univ _)
        isplitl [H0]; · iexact H0
        isplitl [H1]; · iexact H1
        isplitl [H2]; · iexact H2
        isplitl [HSA]; · iexact HSA
        isplitl [HSB]; · iexact HSB
        iintro ⟨H0, H1, H2, ⟨%eA, HSA⟩, ⟨%eB, HSB⟩⟩
        isplitl [HA0 HA1 HA2 HA3 HA4 HA5 HSA HSB Hg]
        · isplitl [HA0 HA1 HA2 HA3 HA4 HA5 HSA HSB]
          · isplitl [HA0]; · iexact HA0
            isplitl [HA1]; · iexact HA1
            isplitl [HA2]; · iexact HA2
            isplitl [HA3]; · iexact HA3
            isplitl [HA4]; · iexact HA4
            isplitl [HA5]; · iexact HA5
            isplitl [HSA]
            · unfold owns; iexists _; isplitr
              swap; · iexact HSA
              ipureintro; exact View.read_writes_of_cover _ _ _ _ _ (coverAFirst c _ _ _ _ _ _ _ _ _ _ _ _ _ _ _ _ _ _ _ _ _ _)
            unfold owns; iexists _; isplitr
            swap; · iexact HSB
            ipureintro; exact View.read_writes_of_cover _ _ _ _ _ (coverBFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc V c t, PhiS_pos V c _ _ hz]
        iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
        iapply ((runFirst c (grid1.coords t) _ _ _ _ _ _ _ _ _ _ _ _ _ _ _ _ ((hcond0 t).mpr h0) (fun h => h1 ((hcond1 t).mp h)) (iblk V c 0 t) (iblk V c 1 t) (iblk V c 2 t)).2.2 Set.univ _)
        isplitl [H0]; · iexact H0
        isplitl [H1]; · iexact H1
        isplitl [H2]; · iexact H2
        isplitl [HSA]; · iexists _; iexact HSA
        isplitl [HSB]; · iexists _; iexact HSB
        iintro ⟨H0, H1, H2, ⟨%eA, HSA⟩, ⟨%eB, HSB⟩⟩
        isplitl [HA0 HA1 HA2 HA3 HA4 HA5 HSA HSB Hg]
        · isplitl [HA0 HA1 HA2 HA3 HA4 HA5 HSA HSB]
          · isplitl [HA0]; · iexact HA0
            isplitl [HA1]; · iexact HA1
            isplitl [HA2]; · iexact HA2
            isplitl [HA3]; · iexact HA3
            isplitl [HA4]; · iexact HA4
            isplitl [HA5]; · iexact HA5
            isplitl [HSA]
            · unfold owns; iexists _; isplitr
              swap; · iexact HSA
              ipureintro; exact View.read_writes_of_cover _ _ _ _ _ (coverAFirst c _ _ _ _ _ _ _ _ _ _ _ _ _ _ _ _ _ _ _ _ _ _)
            unfold owns; iexists _; isplitr
            swap; · iexact HSB
            ipureintro; exact View.read_writes_of_cover _ _ _ _ _ (coverBFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5_last t (fun h => h0 ((hcond0 t).mp h)) ((hcond1 t).mpr h1)], after_5]
      rw [outsAt_last V c t h0 h1]
      unfold outLast accLast lowLast; (try dsimp only)
      rw [PhiS_castSucc V c t, PhiS_pos V c _ _ hz]
      iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ (fun h => h0 ((hcond0 t).mp h)) ((hcond1 t).mpr h1) (iblk V c 0 t) (iblk V c 1 t) (iblk V c 2 t) (iblk V c 3 t) (iblk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HSA]; · iexact HSA
      isplitl [HSB]; · iexact HSB
      iintro ⟨H0, H1, H2, H3, H4, ⟨%e5, H5⟩, ⟨%eA, HSA⟩, ⟨%eB, HSB⟩⟩
      isplitl [HA0 HA1 HA2 HA3 HA4 HA5 HSA HSB Hg]
      · isplitl [HA0 HA1 HA2 HA3 HA4 HA5 HSA HSB]
        · isplitl [HA0]; · iexact HA0
          isplitl [HA1]; · iexact HA1
          isplitl [HA2]; · iexact HA2
          isplitl [HA3]; · iexact HA3
          isplitl [HA4]; · iexact HA4
          isplitl [HA5]; · iexact HA5
          isplitl [HSA]
          · unfold owns; iexists _; isplitr
            swap; · iexact HSA
            ipureintro; exact View.read_writes_of_cover _ _ _ _ _ (coverALast c _ _ _ _ _ _ _ _ _ _ _ _ _ _ _ _ _ _ _ _ _ _ _ _ _ _)
          unfold owns; iexists _; isplitr
          swap; · iexact HSB
          ipureintro; exact View.read_writes_of_cover _ _ _ _ _ (coverBLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOLast c _ _ _ _ _ _ _ _ _ _ _ _ _ _ _ _ _ _ _ _ _ _ _ _ _ _)
    · rw [Dat.leavesExact_idle (dat V c) 5 t (idle5_mid t (fun h => h0 ((hcond0 t).mp h)) (fun h => h1 ((hcond1 t).mp h))) (noFlush5_mid t (fun h => h0 ((hcond0 t).mp h)) (fun h => h1 ((hcond1 t).mp h)))]
      rw [outsAt_mid V c t h0 h1]
      unfold accMid lowMid; (try dsimp only)
      rw [PhiS_castSucc V c t, PhiS_pos V c _ _ hz]
      iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
      iapply ((runMid c (grid1.coords t) _ _ _ _ _ _ _ _ _ _ _ _ _ _ _ _ (fun h => h0 ((hcond0 t).mp h)) (fun h => h1 ((hcond1 t).mp h)) (iblk V c 0 t) (iblk V c 1 t) (iblk V c 2 t) _ _).2.2 Set.univ _)
      isplitl [H0]; · iexact H0
      isplitl [H1]; · iexact H1
      isplitl [H2]; · iexact H2
      isplitl [HSA]; · iexact HSA
      isplitl [HSB]; · iexact HSB
      iintro ⟨H0, H1, H2, ⟨%eA, HSA⟩, ⟨%eB, HSB⟩⟩
      isplitl [HA0 HA1 HA2 HA3 HA4 HA5 HSA HSB Hg]
      · isplitl [HA0 HA1 HA2 HA3 HA4 HA5 HSA HSB]
        · isplitl [HA0]; · iexact HA0
          isplitl [HA1]; · iexact HA1
          isplitl [HA2]; · iexact HA2
          isplitl [HA3]; · iexact HA3
          isplitl [HA4]; · iexact HA4
          isplitl [HA5]; · iexact HA5
          isplitl [HSA]
          · unfold owns; iexists _; isplitr
            swap; · iexact HSA
            ipureintro; exact View.read_writes_of_cover _ _ _ _ _ (coverAMid c _ _ _ _ _ _ _ _ _ _ _ _ _ _ _ _ _ _ _ _ _ _ _ _)
          unfold owns; iexists _; isplitr
          swap; · iexact HSB
          ipureintro; exact View.read_writes_of_cover _ _ _ _ _ (coverBMid c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the resting invariant back: what the accumulators hold
    is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA0, HA1, HA2, HA3, HA4, HA5, HSA, HSB⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HA5]; · iexact HA5
    isplitl [HSA]; · iexists _; iexact HSA
    iexists _; iexact HSB
  iexact Hg

theorem hout (c : Dev nD) : (dat V c).Φ (Fin.last cfg1.N) ⊢ Pipeline.ΦA spec1 c :=
  Phi_out V c _ (by rw [Fin.val_last]; have : cfg1.N = 64 := N_1; omega)

end

end Cert.KernelIdeal.Acc

end
-- ==== Proof.RunFrame.lean ====
/-
  The whole program as four segments — the dequantizing region, three host operations (the activations
  flattened to rows and narrowed, the bias laid out as a row), the product region, one host operation (the
  rows unflattened) — and its run.

  Between two segments a core holds every unscoped buffer at a known valuation: the launch memory; then the
  first region's arrays at what its pipeline leaves; then the host operations applied; then the second
  region's arrays at what its pipeline leaves; then the last host operation applied.  Each region is entered
  by splitting its arrays out of the unscoped buffers and left by putting them back; the generator register
  rides along.  The run's post reads every unscoped buffer of the final memory off the last valuation, so it
  gives both the frame (no argument is written: each is read back through the fold to the launch memory) and
  the result buffer's contents.
-/
import proofs.«122666_j40604620816621_2_alg».proof.Proof.Gen.KernelIdeal.Regions
import proofs.«122666_j40604620816621_2_alg».proof.Proof.DeqBody
import proofs.«122666_j40604620816621_2_alg».proof.Proof.AccFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the dequantizing region: its arrays at what the pipeline leaves, every other buffer as entered. -/
def W1 (c : Dev nD) : Valuation τ sig (Elt F) :=
  Pipeline.withArrays spec0 c (W0 m ρ c) fun w => (Deq.dat (V0 m ρ) c).arrAt w cfg0.N
theorem W1_arr (c : Dev nD) (w : Fin cfg0.W) :
    W1 m ρ c (Proc.devRef .tc (Pipeline.arrRef spec0 w)) = (Deq.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (Deq.dat (V0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = V0 m ρ c b :=
  fun b hb => W1_of_ne m ρ c b fun w e => hb (Finset.mem_image.mpr ⟨w, Finset.mem_univ _, e⟩)
/-- After the three host operations (the product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the product region. -/
def W3 (c : Dev nD) : Valuation τ sig (Elt F) :=
  Pipeline.withArrays spec1 c (W2 m ρ c) fun w => (Acc.dat (V2 m ρ) c).arrAt w cfg1.N
theorem W3_arr (c : Dev nD) (w : Fin cfg1.W) :
    W3 m ρ c (Proc.devRef .tc (Pipeline.arrRef spec1 w)) = (Acc.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Acc.dat (V2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = V2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ## No segment writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((Deq.dat (V0 m ρ) c).arrAt_in 0 rfl _).trans (Deq.A_eq (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((Deq.dat (V0 m ρ) c).arrAt_in 1 rfl _).trans (Deq.A_eq (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 2).trans (((Acc.dat (V2 m ρ) c).arrAt_in 2 rfl _).trans (Acc.A_eq (V2 m ρ) c 2))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 3).trans (((Acc.dat (V2 m ρ) c).arrAt_in 3 rfl _).trans (Acc.A_eq (V2 m ρ) c 3))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat (V0 m ρ) c
  | ⟨1, _⟩ => fun c => Acc.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at
    some state, nothing owed": its arrays are split out of the unscoped buffers on entry and put back at what the
    pipeline leaves on exit; the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers on entry and put back at what the
    pipeline leaves on exit; the generator register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Acc.hin (V2 m ρ) c
    unfold Pipeline.ΦA at h
    rw [show (pdats m ρ 1 c).Φ 0 = (Acc.dat (V2 m ρ) c).Φ 0 from rfl]
    iintro ⟨Hp, -, Hr⟩
    iapply h
    isplitl [Hr]; · iexact Hr
    iexact Hp
  hout c := by
    have h := Acc.hout (V2 m ρ) c
    unfold Pipeline.ΦA at h
    rw [Pipeline.ownSems0_none, show (pdats m ρ 1 c).Φ (Fin.last _) = (Acc.dat (V2 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

end Cert.KernelIdeal.Hand

end
-- ==== Proof.DeqBodyBits.lean ====
/- The dequantisation region of the program, at a PARAMETER `V`: the buffer contents when the region is entered.

   The region walks the 4096 rows of the integer weights in 16 blocks of 256 rows.  At block `t` it is handed rows
   `256·t … 256·t + 255` of the integers (window 0) and of the per-group scales (window 1), multiplies each integer by
   the scale of its group of 64 columns, and writes the 256 × 4096 products over the whole of the output block
   (window 2).  The output block is also read before it is overwritten; what is read is never used, so the block may
   hold anything when the body starts.

   Here: each window's block at a point as a read of the entry contents, the body's triple, the proof data of the
   pipeline (inputs left in place, the output block at the products of the two input blocks), and the obligation of
   the body at every point. -/
import proofs.«122666_j40604620816621_2_alg».proof.Proof.Gen.Kernel.Launch
import proofs.«122666_j40604620816621_2_alg».proof.Proof.Gen.Kernel.Skeleton
import proofs.«122666_j40604620816621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Deq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the integers holds their block at every point, for any proof data whose array is the
    entry contents and whose body leaves the block in place: an input window that is never idle and never cut. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the staging buffer of the scales. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rInt : Rect S256x4096 := Rect.unit (s := S256x4096) ![0, 0] S256x4096.size inb_S256x4096_S256x4096_0_0
abbrev rScale : Rect S256x64 := Rect.unit (s := S256x64) ![0, 0] S256x64.size inb_S256x64_S256x64_0_0

/-- The offsets of both rectangles are zero on every axis. -/
theorem off_zero : (![0, 0] : Fin 2 → Nat) = fun _ => 0 := by
  funext a; match a with | ⟨0, _⟩ => rfl | ⟨1, _⟩ => rfl

/-- The one store of the body is through the whole output buffer, so it covers it. -/
theorem cover_out (p0 : Vec F S256x4096 .bf16) (y : S256x4096.Idx) :
    ∃ pc ∈ ([⟨rInt, p0⟩] : List (View.Piece (Elt F) S256x4096 .bf16)), y ∈ pc.1.set :=
  ⟨_, List.mem_singleton_self _, View.mem_set_unit_zero off_zero inb_S256x4096_S256x4096_0_0 y⟩

/-! ## The body's triple -/

set_option maxHeartbeats 1000000 in
/-- The body on whole staging memrefs — the integers' at `x0`, the scales' at `x1`, the output's at anything — runs to
    the continuation holding the inputs' as they were and the output's at the products: both loads read their whole
    buffers, the read of the output is dropped, and the one store covers the output buffer. -/
theorem sound_kernel (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (x0 : Vec F S256x4096 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x1 x0)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off_zero]
  simp only [View.readAt_eq_ld, View.ld_unit_zero (S := S256x64) off_zero, View.ld_unit_zero (S := S256x4096) off_zero]

/-! ## The pipeline's proof data -/

/-- The proof data of the region on core `c`: the arrays as the region finds them; after the body at point `t` the two
    inputs' buffers at their blocks and the output's at the products of the two blocks; the invariant the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 1 t) (iblk V c 0 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 1 t) (iblk V c 0 t) := by dsimp only [dat]

/-- The invariant is the same at every point. -/
theorem Phi_eq (c : Dev nD) (t : Fin (cfg0.N + 1)) : (dat V c).Φ t = Pipeline.ΦA spec0 c := rfl

/-- Each input's staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, the output's holds something, so the body's triple
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Deq

end
-- ==== Proof.AccRunsBits.lean ====
/-
  The product kernel (region 1) on its grid of 4 x 4 x 4 points (i, j, k), k the innermost coordinate:
  point t has k = t mod 4.  The body keeps two accumulators in scratch memory across the four points
  of one (i, j): the partial product  x(i,k) · w(j,k)ᵀ  summed over k, and the partial low-rank
  activation  x(i,k) · A(k)ᵀ  summed over k.  It clears both at k = 0, adds one block's product to each
  at every k, and at k = 3 stores  (acc + bias row) + 2 · (a · B(j)ᵀ)  into the output block.

  This module fixes the vocabulary of that region: a window's block at a point, read off the arrays as
  the region finds them; the fact that an input's staging buffer holds its block at every point (also at
  the points where it is not fetched again, because its block index did not move); the two branch
  conditions as residues of t mod 4; where the output window is idle; the scratch memrefs; and the
  region's resting invariant (the scoped buffers no window stages, and the generator register) spelled
  out buffer by buffer.
-/
import proofs.«122666_j40604620816621_2_alg».proof.Proof.Gen.Kernel.Launch
import proofs.«122666_j40604620816621_2_alg».proof.Proof.Gen.Kernel.Skeleton
import proofs.«122666_j40604620816621_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## A window's block at a point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not
    fetched its block index has not moved since the point before. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not: where it is not
    fetched its block index has not moved since the point before. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not: where it is not
    fetched its block index has not moved since the point before. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not: where it is not
    fetched its block index has not moved since the point before. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not: where it is not
    fetched its block index has not moved since the point before. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end

/-! ## The two branches, by the innermost coordinate -/

/-- The accumulators are cleared: the innermost coordinate is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The output block is stored: the innermost coordinate is 3. -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

/-- The output window is idle, and not written back, wherever the innermost coordinate is not 3. -/
theorem idle5_first : ∀ t : Fin cfg1.N, cond0 (grid1.coords t) → ¬cond1 (grid1.coords t) → cfg1.idle 5 (grid1.coords t) = true := by decide +kernel
theorem noFlush5_first : ∀ t : Fin cfg1.N, cond0 (grid1.coords t) → ¬cond1 (grid1.coords t) → (cfg1.win 5).flush t = false := by decide +kernel
theorem idle5_mid : ∀ t : Fin cfg1.N, ¬cond0 (grid1.coords t) → ¬cond1 (grid1.coords t) → cfg1.idle 5 (grid1.coords t) = true := by decide +kernel
theorem noFlush5_mid : ∀ t : Fin cfg1.N, ¬cond0 (grid1.coords t) → ¬cond1 (grid1.coords t) → (cfg1.win 5).flush t = false := by decide +kernel
/-- and live where it is 3. -/
theorem live5_last : ∀ t : Fin cfg1.N, ¬cond0 (grid1.coords t) → cond1 (grid1.coords t) → cfg1.idle 5 (grid1.coords t) = false := by decide +kernel

/-! ## The memrefs the body is called with -/

abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x1024 .f32 := win1_5.stage (cfg1.slots t 5)
abbrev hs5 (t : Fin cfg1.N) : (ms5 t).IsWhole := hstage1_5 ((cfg1.slots t 5).cast nbuf1_5)
/-- The product accumulator and the low-rank accumulator: whole scoped buffers of the kernel's own. -/
abbrev scA : Memref sig .tc .vmem S2048x1024 .f32 := Memref.whole cc1_scratch0
abbrev scB : Memref sig .tc .vmem S2048x16 .f32 := Memref.whole cc1_scratch1
/-- The same as views: what they hold is stated through these. -/
abbrev VSA : View sig .tc .vmem S2048x1024 .f32 := scA.view
abbrev VSB : View sig .tc .vmem S2048x16 .f32 := scB.view
/-- One staging buffer of the output window, through which its contents are stated. -/
abbrev VO5 : View sig .tc .vmem S2048x1024 .f32 := (Memref.whole cc1_stg5_0 : Memref sig .tc .vmem S2048x1024 .f32).view

/-- The region's resting invariant, buffer by buffer: the six staging buffers of the other region at some
    contents, the two accumulators at some contents, the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scA fullShare d) ∗ (∃ d, owns (c : Thread nD τ) scB fullShare d)) ∗ (∃ r, prngReg c r)) := by
  unfold Pipeline.ΦA; rw [scopedRest1_eq]; simp only [scA, scB, owns_whole]; try rfl

end Cert.Kernel.Acc

end
-- ==== Proof.AccRunFirstBits.lean ====
/-
  The body at a point whose innermost coordinate is 0.  Both accumulators are first overwritten with
  zeros, then one block's product is added to each; the output buffer, the `B` block and the bias row are
  not touched.  The run is symbolic: the stores that end up in each accumulator are found while running,
  as lists of pieces (a piece is a rectangle of the buffer together with the value stored there), the
  last store first.
-/
import proofs.«122666_j40604620816621_2_alg».proof.Proof.AccRunsBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs it reads at their contents, the two accumulators at anything — the
    body runs to the end, the inputs as they were and each accumulator with its pieces written. -/
noncomputable def runFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32) :
    Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%dA, %fA, -, HA⟩, ⟨%dB, %fB, -, HB⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HB

end Cert.Kernel.Acc

end
-- ==== Proof.AccRunMidBits.lean ====
/-
  The body at a point whose innermost coordinate is 1 or 2.  Neither branch is taken: one block's product
  is added to each accumulator, which the body finds at what the point before left in it; the output
  buffer, the `B` block and the bias row are not touched.
-/
import proofs.«122666_j40604620816621_2_alg».proof.Proof.AccRunFirstBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs it reads at their contents, the two accumulators at the contents
    `xsA`, `xsB` the point before left — the body runs to the end, the inputs as they were and each
    accumulator with its pieces written. -/
noncomputable def runMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32)
    (xsA : Vec F S2048x1024 .f32) (xsB : Vec F S2048x16 .f32) :
    Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg9 fullShare xsA ∗ owns (c : Thread nD τ) arg10 fullShare xsB
            ∗ (iprop(owns (c : Thread nD τ) arg3 fullShare x0 ∗ owns (c : Thread nD τ) arg4 fullShare x1 ∗ owns (c : Thread nD τ) arg5 fullShare x2 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%fA, %hfA, HA⟩, ⟨%fB, %hfB, HB⟩, Hk⟩
    obtain rfl := harg3.eq_unread hf0; obtain rfl := harg4.eq_unread hf1; obtain rfl := harg5.eq_unread hf2
    obtain rfl := harg9.eq_unread hfA; obtain rfl := harg10.eq_unread hfB
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HA]; · iexists _; iexact HA
    iexists _; iexact HB

end Cert.Kernel.Acc

end
-- ==== Proof.AccRunLastBits.lean ====
/-
  The body at a point whose innermost coordinate is 3.  One block's product is added to each accumulator
  as at the points before; then the output block is stored: the product accumulator plus the bias row,
  plus twice the low-rank accumulator times the `B` block transposed.
-/
import proofs.«122666_j40604620816621_2_alg».proof.Proof.AccRunMidBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the five inputs at their contents, the output buffer at anything, the two
    accumulators at the contents the point before left — the body runs to the end, the inputs as they
    were, the output buffer and each accumulator with its pieces written. -/
noncomputable def runLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32)
    (xsA : Vec F S2048x1024 .f32) (xsB : Vec F S2048x16 .f32) :
    Σ' (LO : List (View.Piece (Elt F) S2048x1024 .f32)), Σ' (LA : List (View.Piece (Elt F) S2048x1024 .f32)), { LB : List (View.Piece (Elt F) S2048x16 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xsA ∗ owns (c : Thread nD τ) arg10 fullShare xsB
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LB)) -∗ K ⟨⟩))
          ⊢ wp frame (wpE (defs₀ (F := F)) Variants.none c none) E (cc1__matmul_lora_kernel i arg3 harg3 arg4 harg4 arg5 harg5 arg6 harg6 arg7 harg7 arg8 harg8 arg9 harg9 arg10 harg10) K } := by
  refine ⟨?_, ?_, ?_, fun E K => ?run⟩
  case run =>
    simp only [cc1__matmul_lora_kernel_eq_skeleton]; unfold cc1__matmul_lora_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fA, %hfA, HA⟩, ⟨%fB, %hfB, HB⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hfA; obtain rfl := harg10.eq_unread hfB
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    isplitl [HA]; · iexists _; iexact HA
    iexists _; iexact HB

end Cert.Kernel.Acc

end
-- ==== Proof.AccFrameBits.lean ====
/-
  The product kernel's region, point by point.

  After the body at a point the product accumulator holds, at k = 0, zero plus the first block's product,
  and at k > 0 what the point before left plus this block's product; likewise the low-rank accumulator;
  and at k = 3 the output buffer holds the finished block.  `outsAt` states these three contents by
  recursion on the point.  The region's invariant before a point is, before the first point, the resting
  invariant (both accumulators at anything), and afterwards the same with both accumulators at what the
  point before left.  With these the body's obligation holds at every point: the point's residue mod 4
  says which branch is taken, and each case is that case's symbolic run.
-/
import proofs.«122666_j40604620816621_2_alg».proof.Proof.AccRunLastBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- The pieces stored into the product accumulator cover it. -/
theorem coverAFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  (y : S2048x1024.Idx) :
    ∃ pc ∈ (runFirst c i arg3 harg3 arg4 harg4 arg5 harg5 arg6 harg6 arg7 harg7 arg8 harg8 arg9 harg9 arg10 harg10 hc0 hc1 x0 x1 x2).1, y ∈ pc.1.set :=
  View.cover_of_tiledL (runFirst c i arg3 harg3 arg4 harg4 arg5 harg5 arg6 harg6 arg7 harg7 arg8 harg8 arg9 harg9 arg10 harg10 hc0 hc1 x0 x1 x2).1 S2048x1024.size (by sl_kernel_rfl) y
/-- What the case leaves in the product accumulator. -/
def accFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  : Vec F S2048x1024 .f32 :=
  VSA.read (Elt F) (VSA.writes (Elt F) VSA.junk (runFirst c i arg3 harg3 arg4 harg4 arg5 harg5 arg6 harg6 arg7 harg7 arg8 harg8 arg9 harg9 arg10 harg10 hc0 hc1 x0 x1 x2).1)
/-- The pieces stored into the low-rank accumulator cover it. -/
theorem coverBFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  (y : S2048x16.Idx) :
    ∃ pc ∈ (runFirst c i arg3 harg3 arg4 harg4 arg5 harg5 arg6 harg6 arg7 harg7 arg8 harg8 arg9 harg9 arg10 harg10 hc0 hc1 x0 x1 x2).2.1, y ∈ pc.1.set :=
  View.cover_of_tiledL (runFirst c i arg3 harg3 arg4 harg4 arg5 harg5 arg6 harg6 arg7 harg7 arg8 harg8 arg9 harg9 arg10 harg10 hc0 hc1 x0 x1 x2).2.1 S2048x16.size (by sl_kernel_rfl) y
/-- What the case leaves in the low-rank accumulator. -/
def lowFirst (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  : Vec F S2048x16 .f32 :=
  VSB.read (Elt F) (VSB.writes (Elt F) VSB.junk (runFirst c i arg3 harg3 arg4 harg4 arg5 harg5 arg6 harg6 arg7 harg7 arg8 harg8 arg9 harg9 arg10 harg10 hc0 hc1 x0 x1 x2).2.1)

/-- The pieces stored into the product accumulator cover it. -/
theorem coverAMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) (y : S2048x1024.Idx) :
    ∃ pc ∈ (runMid c i arg3 harg3 arg4 harg4 arg5 harg5 arg6 harg6 arg7 harg7 arg8 harg8 arg9 harg9 arg10 harg10 hc0 hc1 x0 x1 x2 xsA xsB).1, y ∈ pc.1.set :=
  View.cover_of_tiledL (runMid c i arg3 harg3 arg4 harg4 arg5 harg5 arg6 harg6 arg7 harg7 arg8 harg8 arg9 harg9 arg10 harg10 hc0 hc1 x0 x1 x2 xsA xsB).1 S2048x1024.size (by sl_kernel_rfl) y
/-- What the case leaves in the product accumulator. -/
def accMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) : Vec F S2048x1024 .f32 :=
  VSA.read (Elt F) (VSA.writes (Elt F) VSA.junk (runMid c i arg3 harg3 arg4 harg4 arg5 harg5 arg6 harg6 arg7 harg7 arg8 harg8 arg9 harg9 arg10 harg10 hc0 hc1 x0 x1 x2 xsA xsB).1)
/-- The pieces stored into the low-rank accumulator cover it. -/
theorem coverBMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) (y : S2048x16.Idx) :
    ∃ pc ∈ (runMid c i arg3 harg3 arg4 harg4 arg5 harg5 arg6 harg6 arg7 harg7 arg8 harg8 arg9 harg9 arg10 harg10 hc0 hc1 x0 x1 x2 xsA xsB).2.1, y ∈ pc.1.set :=
  View.cover_of_tiledL (runMid c i arg3 harg3 arg4 harg4 arg5 harg5 arg6 harg6 arg7 harg7 arg8 harg8 arg9 harg9 arg10 harg10 hc0 hc1 x0 x1 x2 xsA xsB).2.1 S2048x16.size (by sl_kernel_rfl) y
/-- What the case leaves in the low-rank accumulator. -/
def lowMid (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) : Vec F S2048x16 .f32 :=
  VSB.read (Elt F) (VSB.writes (Elt F) VSB.junk (runMid c i arg3 harg3 arg4 harg4 arg5 harg5 arg6 harg6 arg7 harg7 arg8 harg8 arg9 harg9 arg10 harg10 hc0 hc1 x0 x1 x2 xsA xsB).2.1)

/-- The pieces stored into the product accumulator cover it. -/
theorem coverALast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 xsA xsB).2.1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).2.1 S2048x1024.size (by sl_kernel_rfl) y
/-- What the case leaves in the product accumulator. -/
def accLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x1024 .f32 :=
  VSA.read (Elt F) (VSA.writes (Elt F) VSA.junk (runLast c i arg3 harg3 arg4 harg4 arg5 harg5 arg6 harg6 arg7 harg7 arg8 harg8 arg9 harg9 arg10 harg10 hc0 hc1 x0 x1 x2 x3 x4 xsA xsB).2.1)
/-- The pieces stored into the low-rank accumulator cover it. -/
theorem coverBLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x16.Idx) :
    ∃ pc ∈ (runLast c i arg3 harg3 arg4 harg4 arg5 harg5 arg6 harg6 arg7 harg7 arg8 harg8 arg9 harg9 arg10 harg10 hc0 hc1 x0 x1 x2 x3 x4 xsA xsB).2.2.1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).2.2.1 S2048x16.size (by sl_kernel_rfl) y
/-- What the case leaves in the low-rank accumulator. -/
def lowLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x16 .f32 :=
  VSB.read (Elt F) (VSB.writes (Elt F) VSB.junk (runLast c i arg3 harg3 arg4 harg4 arg5 harg5 arg6 harg6 arg7 harg7 arg8 harg8 arg9 harg9 arg10 harg10 hc0 hc1 x0 x1 x2 x3 x4 xsA xsB).2.2.1)
/-- The pieces stored into the output buffer cover it. -/
theorem coverOLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) (y : S2048x1024.Idx) :
    ∃ pc ∈ (runLast c i arg3 harg3 arg4 harg4 arg5 harg5 arg6 harg6 arg7 harg7 arg8 harg8 arg9 harg9 arg10 harg10 hc0 hc1 x0 x1 x2 x3 x4 xsA xsB).1, y ∈ pc.1.set :=
  View.cover_of_tiledL (runLast c i arg3 harg3 arg4 harg4 arg5 harg5 arg6 harg6 arg7 harg7 arg8 harg8 arg9 harg9 arg10 harg10 hc0 hc1 x0 x1 x2 x3 x4 xsA xsB).1 S2048x1024.size (by sl_kernel_rfl) y
/-- What the case leaves in the output buffer. -/
def outLast (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) : Vec F S2048x1024 .f32 :=
  VO5.read (Elt F) (VO5.writes (Elt F) VO5.junk (runLast c i arg3 harg3 arg4 harg4 arg5 harg5 arg6 harg6 arg7 harg7 arg8 harg8 arg9 harg9 arg10 harg10 hc0 hc1 x0 x1 x2 x3 x4 xsA xsB).1)

/-- At a point that stores nothing into the output buffer its contents are not named: a placeholder that
    nothing consults, since the window is neither written back there nor read at the next point. -/
def outIdle : Vec F S2048x1024 .f32 := VO5.read (Elt F) VO5.junk

section
variable (V : (c : Dev nD) → (b : Ref sig .tc) → Buf (Elt F) ((c : Thread nD τ).loc b))

/-! ## What the buffers hold after each point -/

/-- After the body at position `n`: the output buffer, the product accumulator, the low-rank accumulator. -/
def outsAt (c : Dev nD) : (n : ℕ) → n < cfg1.N → Vec F S2048x1024 .f32 × Vec F S2048x1024 .f32 × Vec F S2048x16 .f32
  | 0, hn =>
    (outIdle,
     accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scA (Memref.isWhole_whole _) scB (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩),
     lowFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scA (Memref.isWhole_whole _) scB (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle,
         accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩),
         lowFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 4 = 3 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
         accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
         lowLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
      else
        (outIdle,
         accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
         lowMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scA (Memref.isWhole_whole _) scB (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- What the point before `t` left (for `t` not the first point). -/
abbrev prevAt (c : Dev nD) (t : Fin cfg1.N) := outsAt V c (t.val - 1) (Nat.lt_of_le_of_lt (Nat.sub_le _ _) t.isLt)

theorem outsAt_first (c : Dev nD) (t : Fin cfg1.N) (h0 : t.val % 4 = 0) (h1 : ¬t.val % 4 = 3) :
    outsAt V c t.val t.isLt = (outIdle,
      accFirst c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t),
      lowFirst c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_mid (c : Dev nD) (t : Fin cfg1.N) (h0 : ¬t.val % 4 = 0) (h1 : ¬t.val % 4 = 3) :
    outsAt V c t.val t.isLt = (outIdle,
      accMid c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2,
      lowMid c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg1.N) (h0 : ¬t.val % 4 = 0) (h1 : t.val % 4 = 3) :
    outsAt V c t.val t.isLt = (
      outLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2,
      accLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2,
      lowLast c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the resting invariant; afterwards the other region's staging buffers at
    anything, both accumulators at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c n hn).2.1) ∗ owns (c : Thread nD τ) scB fullShare ((outsAt V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c n hn).2.1) ∗ owns (c : Thread nD τ) scB fullShare ((outsAt V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scA fullShare ((outsAt V c (n - 1) (by omega)).2.1) ∗ owns (c : Thread nD τ) scB fullShare ((outsAt V c (n - 1) (by omega)).2.2)) ∗ (∃ r, prngReg c r)) := by
  cases n with
  | zero => exact absurd rfl hz
  | succ n => rfl

/-! ## The proof data -/

/-- The region's proof data on core `c`: the arrays as the region finds them; after the body each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem live_0 : ∀ t : Fin cfg1.N, cfg1.idle 0 (grid1.coords t) = false := fun _ => rfl
theorem before_1 (c : Dev nD) (t : Fin cfg1.N) (d) : (dat V c).before 1 t d = iblk V c 1 t :=
  before_1_of V (dat V c) (A_eq V c 1) (after_1 V c) t d
theorem live_1 : ∀ t : Fin cfg1.N, cfg1.idle 1 (grid1.coords t) = false := fun _ => rfl
theorem before_2 (c : Dev nD) (t : Fin cfg1.N) (d) : (dat V c).before 2 t d = iblk V c 2 t :=
  before_2_of V (dat V c) (A_eq V c 2) (after_2 V c) t d
theorem live_2 : ∀ t : Fin cfg1.N, cfg1.idle 2 (grid1.coords t) = false := fun _ => rfl
theorem before_3 (c : Dev nD) (t : Fin cfg1.N) (d) : (dat V c).before 3 t d = iblk V c 3 t :=
  before_3_of V (dat V c) (A_eq V c 3) (after_3 V c) t d
theorem live_3 : ∀ t : Fin cfg1.N, cfg1.idle 3 (grid1.coords t) = false := fun _ => rfl
theorem before_4 (c : Dev nD) (t : Fin cfg1.N) (d) : (dat V c).before 4 t d = iblk V c 4 t :=
  before_4_of V (dat V c) (A_eq V c 4) (after_4 V c) t d
theorem live_4 : ∀ t : Fin cfg1.N, cfg1.idle 4 (grid1.coords t) = false := fun _ => rfl

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

end

section
variable (V : (c : Dev nD) → (b : Ref sig .tc) → Buf (Elt F) ((c : Thread nD τ).loc b))

set_option maxHeartbeats 4800000 in
/-- The body at any point.  The inputs' buffers hold their blocks; the residue of the point mod 4 says which
    case it is; the invariant hands the run both accumulators — at anything before the first point, at what
    the point before left otherwise — and takes them back at this point's contents, which cover them; the
    output buffer is handed back untouched where the case stores nothing into it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  rw [show (dat V c).leavesExact 4 t = owns (c : Thread nD τ) (ms4 t) fullShare ((dat V c).after 4 t) from by
    unfold Dat.leavesExact; rw [live_4 t], after_4]
  by_cases h0 : t.val % 4 = 0
  · by_cases h1 : t.val % 4 = 3
    · exfalso; omega
    · rw [Dat.leavesExact_idle (dat V c) 5 t (idle5_first t ((hcond0 t).mpr h0) (fun h => h1 ((hcond1 t).mp h))) (noFlush5_first t ((hcond0 t).mpr h0) (fun h => h1 ((hcond1 t).mp h)))]
      rw [outsAt_first V c t h0 h1]
      unfold accFirst lowFirst; (try dsimp only)
      by_cases hz : t.val = 0
      · rw [PhiS_castSucc V c t, PhiS_zero V c _ _ hz, PhiA_eq]
        iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
        iapply ((runFirst c (grid1.coords t) _ _ _ _ _ _ _ _ _ _ _ _ _ _ _ _ ((hcond0 t).mpr h0) (fun h => h1 ((hcond1 t).mp h)) (iblk V c 0 t) (iblk V c 1 t) (iblk V c 2 t)).2.2 Set.univ _)
        isplitl [H0]; · iexact H0
        isplitl [H1]; · iexact H1
        isplitl [H2]; · iexact H2
        isplitl [HSA]; · iexact HSA
        isplitl [HSB]; · iexact HSB
        iintro ⟨H0, H1, H2, ⟨%eA, HSA⟩, ⟨%eB, HSB⟩⟩
        isplitl [HA0 HA1 HA2 HA3 HA4 HA5 HSA HSB Hg]
        · isplitl [HA0 HA1 HA2 HA3 HA4 HA5 HSA HSB]
          · isplitl [HA0]; · iexact HA0
            isplitl [HA1]; · iexact HA1
            isplitl [HA2]; · iexact HA2
            isplitl [HA3]; · iexact HA3
            isplitl [HA4]; · iexact HA4
            isplitl [HA5]; · iexact HA5
            isplitl [HSA]
            · unfold owns; iexists _; isplitr
              swap; · iexact HSA
              ipureintro; exact View.read_writes_of_cover _ _ _ _ _ (coverAFirst c _ _ _ _ _ _ _ _ _ _ _ _ _ _ _ _ _ _ _ _ _ _)
            unfold owns; iexists _; isplitr
            swap; · iexact HSB
            ipureintro; exact View.read_writes_of_cover _ _ _ _ _ (coverBFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc V c t, PhiS_pos V c _ _ hz]
        iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
        iapply ((runFirst c (grid1.coords t) _ _ _ _ _ _ _ _ _ _ _ _ _ _ _ _ ((hcond0 t).mpr h0) (fun h => h1 ((hcond1 t).mp h)) (iblk V c 0 t) (iblk V c 1 t) (iblk V c 2 t)).2.2 Set.univ _)
        isplitl [H0]; · iexact H0
        isplitl [H1]; · iexact H1
        isplitl [H2]; · iexact H2
        isplitl [HSA]; · iexists _; iexact HSA
        isplitl [HSB]; · iexists _; iexact HSB
        iintro ⟨H0, H1, H2, ⟨%eA, HSA⟩, ⟨%eB, HSB⟩⟩
        isplitl [HA0 HA1 HA2 HA3 HA4 HA5 HSA HSB Hg]
        · isplitl [HA0 HA1 HA2 HA3 HA4 HA5 HSA HSB]
          · isplitl [HA0]; · iexact HA0
            isplitl [HA1]; · iexact HA1
            isplitl [HA2]; · iexact HA2
            isplitl [HA3]; · iexact HA3
            isplitl [HA4]; · iexact HA4
            isplitl [HA5]; · iexact HA5
            isplitl [HSA]
            · unfold owns; iexists _; isplitr
              swap; · iexact HSA
              ipureintro; exact View.read_writes_of_cover _ _ _ _ _ (coverAFirst c _ _ _ _ _ _ _ _ _ _ _ _ _ _ _ _ _ _ _ _ _ _)
            unfold owns; iexists _; isplitr
            swap; · iexact HSB
            ipureintro; exact View.read_writes_of_cover _ _ _ _ _ (coverBFirst c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5_last t (fun h => h0 ((hcond0 t).mp h)) ((hcond1 t).mpr h1)], after_5]
      rw [outsAt_last V c t h0 h1]
      unfold outLast accLast lowLast; (try dsimp only)
      rw [PhiS_castSucc V c t, PhiS_pos V c _ _ hz]
      iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ (fun h => h0 ((hcond0 t).mp h)) ((hcond1 t).mpr h1) (iblk V c 0 t) (iblk V c 1 t) (iblk V c 2 t) (iblk V c 3 t) (iblk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HSA]; · iexact HSA
      isplitl [HSB]; · iexact HSB
      iintro ⟨H0, H1, H2, H3, H4, ⟨%e5, H5⟩, ⟨%eA, HSA⟩, ⟨%eB, HSB⟩⟩
      isplitl [HA0 HA1 HA2 HA3 HA4 HA5 HSA HSB Hg]
      · isplitl [HA0 HA1 HA2 HA3 HA4 HA5 HSA HSB]
        · isplitl [HA0]; · iexact HA0
          isplitl [HA1]; · iexact HA1
          isplitl [HA2]; · iexact HA2
          isplitl [HA3]; · iexact HA3
          isplitl [HA4]; · iexact HA4
          isplitl [HA5]; · iexact HA5
          isplitl [HSA]
          · unfold owns; iexists _; isplitr
            swap; · iexact HSA
            ipureintro; exact View.read_writes_of_cover _ _ _ _ _ (coverALast c _ _ _ _ _ _ _ _ _ _ _ _ _ _ _ _ _ _ _ _ _ _ _ _ _ _)
          unfold owns; iexists _; isplitr
          swap; · iexact HSB
          ipureintro; exact View.read_writes_of_cover _ _ _ _ _ (coverBLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOLast c _ _ _ _ _ _ _ _ _ _ _ _ _ _ _ _ _ _ _ _ _ _ _ _ _ _)
    · rw [Dat.leavesExact_idle (dat V c) 5 t (idle5_mid t (fun h => h0 ((hcond0 t).mp h)) (fun h => h1 ((hcond1 t).mp h))) (noFlush5_mid t (fun h => h0 ((hcond0 t).mp h)) (fun h => h1 ((hcond1 t).mp h)))]
      rw [outsAt_mid V c t h0 h1]
      unfold accMid lowMid; (try dsimp only)
      rw [PhiS_castSucc V c t, PhiS_pos V c _ _ hz]
      iintro ⟨⟨⟨HA0, HA1, HA2, HA3, HA4, HA5, HSA, HSB⟩, Hg⟩, Ho, ⟨%d0, H0⟩, ⟨%d1, H1⟩, ⟨%d2, H2⟩, ⟨%d3, H3⟩, ⟨%d4, H4⟩, H5⟩
      iapply ((runMid c (grid1.coords t) _ _ _ _ _ _ _ _ _ _ _ _ _ _ _ _ (fun h => h0 ((hcond0 t).mp h)) (fun h => h1 ((hcond1 t).mp h)) (iblk V c 0 t) (iblk V c 1 t) (iblk V c 2 t) _ _).2.2 Set.univ _)
      isplitl [H0]; · iexact H0
      isplitl [H1]; · iexact H1
      isplitl [H2]; · iexact H2
      isplitl [HSA]; · iexact HSA
      isplitl [HSB]; · iexact HSB
      iintro ⟨H0, H1, H2, ⟨%eA, HSA⟩, ⟨%eB, HSB⟩⟩
      isplitl [HA0 HA1 HA2 HA3 HA4 HA5 HSA HSB Hg]
      · isplitl [HA0 HA1 HA2 HA3 HA4 HA5 HSA HSB]
        · isplitl [HA0]; · iexact HA0
          isplitl [HA1]; · iexact HA1
          isplitl [HA2]; · iexact HA2
          isplitl [HA3]; · iexact HA3
          isplitl [HA4]; · iexact HA4
          isplitl [HA5]; · iexact HA5
          isplitl [HSA]
          · unfold owns; iexists _; isplitr
            swap; · iexact HSA
            ipureintro; exact View.read_writes_of_cover _ _ _ _ _ (coverAMid c _ _ _ _ _ _ _ _ _ _ _ _ _ _ _ _ _ _ _ _ _ _ _ _)
          unfold owns; iexists _; isplitr
          swap; · iexact HSB
          ipureintro; exact View.read_writes_of_cover _ _ _ _ _ (coverBMid c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the resting invariant back: what the accumulators hold
    is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA0, HA1, HA2, HA3, HA4, HA5, HSA, HSB⟩, Hg⟩
  isplitr [Hg]
  · isplitl [HA0]; · iexact HA0
    isplitl [HA1]; · iexact HA1
    isplitl [HA2]; · iexact HA2
    isplitl [HA3]; · iexact HA3
    isplitl [HA4]; · iexact HA4
    isplitl [HA5]; · iexact HA5
    isplitl [HSA]; · iexists _; iexact HSA
    iexists _; iexact HSB
  iexact Hg

theorem hout (c : Dev nD) : (dat V c).Φ (Fin.last cfg1.N) ⊢ Pipeline.ΦA spec1 c :=
  Phi_out V c _ (by rw [Fin.val_last]; have : cfg1.N = 64 := N_1; omega)

end

end Cert.Kernel.Acc

end
-- ==== Proof.RunFrameBits.lean ====
/-
  The whole program as four segments — the dequantizing region, three host operations (the activations
  flattened to rows and narrowed, the bias laid out as a row), the product region, one host operation (the
  rows unflattened) — and its run.

  Between two segments a core holds every unscoped buffer at a known valuation: the launch memory; then the
  first region's arrays at what its pipeline leaves; then the host operations applied; then the second
  region's arrays at what its pipeline leaves; then the last host operation applied.  Each region is entered
  by splitting its arrays out of the unscoped buffers and left by putting them back; the generator register
  rides along.  The run's post reads every unscoped buffer of the final memory off the last valuation, so it
  gives both the frame (no argument is written: each is read back through the fold to the launch memory) and
  the result buffer's contents.
-/
import proofs.«122666_j40604620816621_2_alg».proof.Proof.Gen.Kernel.Regions
import proofs.«122666_j40604620816621_2_alg».proof.Proof.DeqBodyBits
import proofs.«122666_j40604620816621_2_alg».proof.Proof.AccFrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the dequantizing region: its arrays at what the pipeline leaves, every other buffer as entered. -/
def W1 (c : Dev nD) : Valuation τ sig (Elt F) :=
  Pipeline.withArrays spec0 c (W0 m ρ c) fun w => (Deq.dat (V0 m ρ) c).arrAt w cfg0.N
theorem W1_arr (c : Dev nD) (w : Fin cfg0.W) :
    W1 m ρ c (Proc.devRef .tc (Pipeline.arrRef spec0 w)) = (Deq.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (Deq.dat (V0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = V0 m ρ c b :=
  fun b hb => W1_of_ne m ρ c b fun w e => hb (Finset.mem_image.mpr ⟨w, Finset.mem_univ _, e⟩)
/-- After the three host operations (the product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the product region. -/
def W3 (c : Dev nD) : Valuation τ sig (Elt F) :=
  Pipeline.withArrays spec1 c (W2 m ρ c) fun w => (Acc.dat (V2 m ρ) c).arrAt w cfg1.N
theorem W3_arr (c : Dev nD) (w : Fin cfg1.W) :
    W3 m ρ c (Proc.devRef .tc (Pipeline.arrRef spec1 w)) = (Acc.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Acc.dat (V2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = V2 m ρ c b :=
  fun b hb => W3_of_ne m ρ c b fun w e => hb (Finset.mem_image.mpr ⟨w, Finset.mem_univ _, e⟩)
/-- After the last host operation. -/
abbrev W4 : Dev nD → Valuation τ sig (Elt F) := fun c => StableHlo.after hostOps2 (W3 m ρ c)

/-! ## No segment writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((Deq.dat (V0 m ρ) c).arrAt_in 0 rfl _).trans (Deq.A_eq (V0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((Deq.dat (V0 m ρ) c).arrAt_in 1 rfl _).trans (Deq.A_eq (V0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 2).trans (((Acc.dat (V2 m ρ) c).arrAt_in 2 rfl _).trans (Acc.A_eq (V2 m ρ) c 2))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 3).trans (((Acc.dat (V2 m ρ) c).arrAt_in 3 rfl _).trans (Acc.A_eq (V2 m ρ) c 3))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Deq.dat (V0 m ρ) c
  | ⟨1, _⟩ => fun c => Acc.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at
    some state, nothing owed": its arrays are split out of the unscoped buffers on entry and put back at what the
    pipeline leaves on exit; the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Deq.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at
    some state, nothing owed": its arrays are split out of the unscoped buffers on entry and put back at what the
    pipeline leaves on exit; the generator register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Acc.hin (V2 m ρ) c
    unfold Pipeline.ΦA at h
    rw [show (pdats m ρ 1 c).Φ 0 = (Acc.dat (V2 m ρ) c).Φ 0 from rfl]
    iintro ⟨Hp, -, Hr⟩
    iapply h
    isplitl [Hr]; · iexact Hr
    iexact Hp
  hout c := by
    have h := Acc.hout (V2 m ρ) c
    unfold Pipeline.ΦA at h
    rw [Pipeline.ownSems0_none, show (pdats m ρ 1 c).Φ (Fin.last _) = (Acc.dat (V2 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩) (run_all m ρ)

end Cert.Kernel.Hand

end
-- ==== Proof.AccPieces.lean ====
/-
  What each case leaves, as the body's arithmetic.  Every store of the body is through the whole of its
  buffer, so what a buffer holds afterwards is the value of the last store into it, and a load after a store
  reads that store's value: the product accumulator ends at  (what it held, or zero) + x·wᵀ, the low-rank
  accumulator at  (what it held, or zero) + x·Aᵀ, and at the last of the four points the output buffer ends
  at  (product accumulator + bias row) + 2 · (low-rank accumulator · Bᵀ)  of the accumulators just updated.
-/
import proofs.«122666_j40604620816621_2_alg».proof.Proof.AccFrame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every rectangle the body uses are zero on both axes. -/
theorem off_zero : (![0, 0] : Fin 2 → Nat) = fun _ => 0 := by
  funext a; match a with | ⟨0, _⟩ => rfl | ⟨1, _⟩ => rfl

set_option maxHeartbeats 1000000

theorem accFirst_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  :
    accFirst c i arg3 harg3 arg4 harg4 arg5 harg5 arg6 harg6 arg7 harg7 arg8 harg8 arg9 harg9 arg10 harg10 hc0 hc1 x0 x1 x2 = k1_pay4 x0 x1 (k1_pay1 (F := F)) := by
  unfold accFirst
  rw [View.read_writes_eq_canon _ _ _ (coverAFirst c i arg3 harg3 arg4 harg4 arg5 harg5 arg6 harg6 arg7 harg7 arg8 harg8 arg9 harg9 arg10 harg10 hc0 hc1 x0 x1 x2)]
  unfold runFirst
  dsimp only
  sl_unfold_words
  refine (View.canon_cons_unit_zero (S := S2048x1024) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem lowFirst_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0 i) (hc1 : ¬cond1 i)
    (x0 : Vec F S2048x1024 .bf16) (x1 : Vec F S1024x1024 .bf16) (x2 : Vec F S16x1024 .f32)  :
    lowFirst c i arg3 harg3 arg4 harg4 arg5 harg5 arg6 harg6 arg7 harg7 arg8 harg8 arg9 harg9 arg10 harg10 hc0 hc1 x0 x1 x2 = k1_pay5 x0 x2 (k1_pay2 (F := F)) := by
  unfold lowFirst
  rw [View.read_writes_eq_canon _ _ _ (coverBFirst c i arg3 harg3 arg4 harg4 arg5 harg5 arg6 harg6 arg7 harg7 arg8 harg8 arg9 harg9 arg10 harg10 hc0 hc1 x0 x1 x2)]
  unfold runFirst
  dsimp only
  sl_unfold_words
  refine (View.canon_cons_unit_zero (S := S2048x16) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem accMid_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) :
    accMid c i arg3 harg3 arg4 harg4 arg5 harg5 arg6 harg6 arg7 harg7 arg8 harg8 arg9 harg9 arg10 harg10 hc0 hc1 x0 x1 x2 xsA xsB = k1_pay4 x0 x1 xsA := by
  unfold accMid
  rw [View.read_writes_eq_canon _ _ _ (coverAMid c i arg3 harg3 arg4 harg4 arg5 harg5 arg6 harg6 arg7 harg7 arg8 harg8 arg9 harg9 arg10 harg10 hc0 hc1 x0 x1 x2 xsA xsB)]
  unfold runMid
  dsimp only
  sl_unfold_words
  refine (View.canon_cons_unit_zero (S := S2048x1024) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem lowMid_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : ¬cond1 i)
    (x0 : Vec F S2048x1024 .bf16) (x1 : Vec F S1024x1024 .bf16) (x2 : Vec F S16x1024 .f32) (xsA : Vec F S2048x1024 .f32) (xsB : Vec F S2048x16 .f32) :
    lowMid c i arg3 harg3 arg4 harg4 arg5 harg5 arg6 harg6 arg7 harg7 arg8 harg8 arg9 harg9 arg10 harg10 hc0 hc1 x0 x1 x2 xsA xsB = k1_pay5 x0 x2 xsB := by
  unfold lowMid
  rw [View.read_writes_eq_canon _ _ _ (coverBMid c i arg3 harg3 arg4 harg4 arg5 harg5 arg6 harg6 arg7 harg7 arg8 harg8 arg9 harg9 arg10 harg10 hc0 hc1 x0 x1 x2 xsA xsB)]
  unfold runMid
  dsimp only
  sl_unfold_words
  refine (View.canon_cons_unit_zero (S := S2048x16) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem accLast_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) :
    accLast c i arg3 harg3 arg4 harg4 arg5 harg5 arg6 harg6 arg7 harg7 arg8 harg8 arg9 harg9 arg10 harg10 hc0 hc1 x0 x1 x2 x3 x4 xsA xsB = k1_pay4 x0 x1 xsA := by
  unfold accLast
  rw [View.read_writes_eq_canon _ _ _ (coverALast c i arg3 harg3 arg4 harg4 arg5 harg5 arg6 harg6 arg7 harg7 arg8 harg8 arg9 harg9 arg10 harg10 hc0 hc1 x0 x1 x2 x3 x4 xsA xsB)]
  unfold runLast
  dsimp only
  sl_unfold_words
  refine (View.canon_cons_unit_zero (S := S2048x1024) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem lowLast_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) :
    lowLast c i arg3 harg3 arg4 harg4 arg5 harg5 arg6 harg6 arg7 harg7 arg8 harg8 arg9 harg9 arg10 harg10 hc0 hc1 x0 x1 x2 x3 x4 xsA xsB = k1_pay5 x0 x2 xsB := by
  unfold lowLast
  rw [View.read_writes_eq_canon _ _ _ (coverBLast c i arg3 harg3 arg4 harg4 arg5 harg5 arg6 harg6 arg7 harg7 arg8 harg8 arg9 harg9 arg10 harg10 hc0 hc1 x0 x1 x2 x3 x4 xsA xsB)]
  unfold runLast
  dsimp only
  sl_unfold_words
  refine (View.canon_cons_unit_zero (S := S2048x16) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

theorem outLast_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S16x1024 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0 i) (hc1 : cond1 i)
    (x0 : Vec F S2048x1024 .bf16) (x1 : Vec F S1024x1024 .bf16) (x2 : Vec F S16x1024 .f32) (x3 : Vec F S1024x16 .f32) (x4 : Vec F S1x1024 .f32) (xsA : Vec F S2048x1024 .f32) (xsB : Vec F S2048x16 .f32) :
    outLast c i arg3 harg3 arg4 harg4 arg5 harg5 arg6 harg6 arg7 harg7 arg8 harg8 arg9 harg9 arg10 harg10 hc0 hc1 x0 x1 x2 x3 x4 xsA xsB = k1_pay6 x3 (k1_pay5 x0 x2 xsB) (k1_pay4 x0 x1 xsA) x4 := by
  unfold outLast
  rw [View.read_writes_eq_canon _ _ _ (coverOLast c i arg3 harg3 arg4 harg4 arg5 harg5 arg6 harg6 arg7 harg7 arg8 harg8 arg9 harg9 arg10 harg10 hc0 hc1 x0 x1 x2 x3 x4 xsA xsB)]
  unfold runLast
  dsimp only
  sl_unfold_words
  refine (View.canon_cons_unit_zero (S := S2048x1024) off_zero _ _ _).trans ?_
  simp only [View.readAt_eq_ld, Memref.IsWhole.read_unread, View.readCov_unit_zero (S := S2048x1024) _ off_zero, View.readCov_unit_zero (S := S2048x16) _ off_zero,
    View.ld_unit_zero (S := S2048x1024) off_zero, View.ld_unit_zero (S := S1024x1024) off_zero, View.ld_unit_zero (S := S16x1024) off_zero,
    View.ld_unit_zero (S := S1024x16) off_zero, View.ld_unit_zero (S := S1x1024) off_zero, View.ld_unit_zero (S := S2048x16) off_zero]

end Cert.KernelIdeal.Acc

end
-- ==== Proof.AccBlocks.lean ====
/- The matmul region's blocks, read entry by entry, and its output array after the run.

   The region walks a 4 × 4 × 4 grid; point `t` has coordinates `i = t / 16` (the block of 2048 rows of the activations),
   `j = (t / 4) % 4` (the block of 1024 output features) and `k = t % 4` (the block of 1024 input features).  Each window's
   block at a point is a rectangle of its array: an entry of the block sits at block index × block size + its place in
   the block, on each axis.  The output block (i, j) is written back once, at the last `k`; the 16 blocks written back
   tile the output array, so the array ends as any function that agrees with what each write-back wrote. -/
import proofs.«122666_j40604620816621_2_alg».proof.Proof.AccFrame
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The six windows' block indices at point `t`, in the point's coordinates `t / 16`, `(t / 4) % 4`, `t % 4`. -/
theorem idx_facts : ∀ t : Fin cfg1.N,
    win1_0.index t (0 : Fin 2) = t.val / 16 ∧ win1_0.index t (1 : Fin 2) = t.val % 4
    ∧ win1_1.index t (0 : Fin 2) = (t.val / 4) % 4 ∧ win1_1.index t (1 : Fin 2) = t.val % 4
    ∧ win1_2.index t (0 : Fin 2) = 0 ∧ win1_2.index t (1 : Fin 2) = t.val % 4
    ∧ win1_3.index t (0 : Fin 2) = (t.val / 4) % 4 ∧ win1_3.index t (1 : Fin 2) = 0
    ∧ win1_4.index t (0 : Fin 2) = 0 ∧ win1_4.index t (1 : Fin 2) = (t.val / 4) % 4
    ∧ win1_5.index t (0 : Fin 2) = t.val / 16 ∧ win1_5.index t (1 : Fin 2) = (t.val / 4) % 4 :=
  (by decide +kernel : ∀ t : Fin grid1.N, _)

/-- The activations' block at point `t`, entry (p, u): row `2048·i + p`, column `1024·k + u` of the array. -/
theorem iblk0_apply (c : Dev nD) (t : Fin cfg1.N) (p : Fin 2048) (u : Fin 1024) (R : Fin 8192) (U : Fin 4096)
    (hR : R.val = 2048 * (t.val / 16) + p.val) (hU : U.val = 1024 * (t.val % 4) + u.val) :
    (iblk V c 0 t : Vec Ideal S2048x1024 .bf16) (ix2 p u) = (V c main_v2 : S8192x4096.Idx → Elt Ideal .bf16) (ix2 R U) := by
  obtain ⟨e0, e1, -⟩ := idx_facts t
  unfold iblk
  rw [View.read_apply]
  show V c main_v2 _ = V c main_v2 _
  refine congrArg (V c main_v2) (funext fun a => Fin.ext ?_)
  match a with
  | ⟨0, _⟩ => show win1_0.index t (0 : Fin 2) * 2048 + 1 * p.val = R.val; rw [e0, hR]; omega
  | ⟨1, _⟩ => show win1_0.index t (1 : Fin 2) * 1024 + 1 * u.val = U.val; rw [e1, hU]; omega

/-- The weight's block at point `t`, entry (q, u): row `1024·j + q`, column `1024·k + u` of the array. -/
theorem iblk1_apply (c : Dev nD) (t : Fin cfg1.N) (q : Fin 1024) (u : Fin 1024) (C : Fin 4096) (U : Fin 4096)
    (hC : C.val = 1024 * ((t.val / 4) % 4) + q.val) (hU : U.val = 1024 * (t.val % 4) + u.val) :
    (iblk V c 1 t : Vec Ideal S1024x1024 .bf16) (ix2 q u) = (V c main_v0 : S4096x4096.Idx → Elt Ideal .bf16) (ix2 C U) := by
  obtain ⟨-, -, e0, e1, -⟩ := idx_facts t
  unfold iblk
  rw [View.read_apply]
  show V c main_v0 _ = V c main_v0 _
  refine congrArg (V c main_v0) (funext fun a => Fin.ext ?_)
  match a with
  | ⟨0, _⟩ => show win1_1.index t (0 : Fin 2) * 1024 + 1 * q.val = C.val; rw [e0, hC]; omega
  | ⟨1, _⟩ => show win1_1.index t (1 : Fin 2) * 1024 + 1 * u.val = U.val; rw [e1, hU]; omega

/-- The first low-rank factor's block at point `t`, entry (r, u): row `r`, column `1024·k + u` of the array. -/
theorem iblk2_apply (c : Dev nD) (t : Fin cfg1.N) (r : Fin 16) (u : Fin 1024) (U : Fin 4096)
    (hU : U.val = 1024 * (t.val % 4) + u.val) :
    (iblk V c 2 t : Vec Ideal S16x1024 .f32) (ix2 r u) = (V c main_arg3 : S16x4096.Idx → Elt Ideal .f32) (ix2 r U) := by
  obtain ⟨-, -, -, -, e0, e1, -⟩ := idx_facts t
  unfold iblk
  rw [View.read_apply]
  show V c main_arg3 _ = V c main_arg3 _
  refine congrArg (V c main_arg3) (funext fun a => Fin.ext ?_)
  match a with
  | ⟨0, _⟩ => show win1_2.index t (0 : Fin 2) * 16 + 1 * r.val = r.val; rw [e0]; omega
  | ⟨1, _⟩ => show win1_2.index t (1 : Fin 2) * 1024 + 1 * u.val = U.val; rw [e1, hU]; omega

/-- The second low-rank factor's block at point `t`, entry (q, r): row `1024·j + q`, column `r` of the array. -/
theorem iblk3_apply (c : Dev nD) (t : Fin cfg1.N) (q : Fin 1024) (r : Fin 16) (C : Fin 4096)
    (hC : C.val = 1024 * ((t.val / 4) % 4) + q.val) :
    (iblk V c 3 t : Vec Ideal S1024x16 .f32) (ix2 q r) = (V c main_arg4 : S4096x16.Idx → Elt Ideal .f32) (ix2 C r) := by
  obtain ⟨-, -, -, -, -, -, e0, e1, -⟩ := idx_facts t
  unfold iblk
  rw [View.read_apply]
  show V c main_arg4 _ = V c main_arg4 _
  refine congrArg (V c main_arg4) (funext fun a => Fin.ext ?_)
  match a with
  | ⟨0, _⟩ => show win1_3.index t (0 : Fin 2) * 1024 + 1 * q.val = C.val; rw [e0, hC]; omega
  | ⟨1, _⟩ => show win1_3.index t (1 : Fin 2) * 16 + 1 * r.val = r.val; rw [e1]; omega

/-- The bias row's block at point `t`, entry (0, q): column `1024·j + q` of the one row of the array. -/
theorem iblk4_apply (c : Dev nD) (t : Fin cfg1.N) (q : Fin 1024) (C : Fin 4096)
    (hC : C.val = 1024 * ((t.val / 4) % 4) + q.val) :
    (iblk V c 4 t : Vec Ideal S1x1024 .f32) (ix2 0 q) = (V c main_v3 : S1x4096.Idx → Elt Ideal .f32) (ix2 0 C) := by
  obtain ⟨-, -, -, -, -, -, -, -, e0, e1, -⟩ := idx_facts t
  unfold iblk
  rw [View.read_apply]
  show V c main_v3 _ = V c main_v3 _
  refine congrArg (V c main_v3) (funext fun a => Fin.ext ?_)
  match a with
  | ⟨0, _⟩ => show win1_4.index t (0 : Fin 2) * 1 + 1 * 0 = 0; rw [e0]
  | ⟨1, _⟩ => show win1_4.index t (1 : Fin 2) * 1024 + 1 * q.val = C.val; rw [e1, hC]; omega

/-! ## The output array after the run -/

/-- An index of the output array is in point `t`'s block iff each coordinate is in the block's range on its axis. -/
theorem mem_blk5 (t : Fin cfg1.N) (i : S8192x4096.Idx) :
    i ∈ ((cfg1.win 5).blk t).view.set ↔ ∀ a : Fin 2, win1_5.index t a * S2048x1024.size a ≤ (i a).val ∧ (i a).val < win1_5.index t a * S2048x1024.size a + S2048x1024.size a := by
  show i ∈ ((View.whole main_v4).slice (win1_5.rect t)).set ↔ _
  rw [View.set_slice_whole, Rect.mem_set_unit]
  exact Iff.rfl

/-- What a point that writes the output back writes is its block of `G`, when `G` agrees entry by entry with what the
    body left there: entry (p, q) of the block of point `t` is entry (2048·i + p, 1024·j + q) of the array. -/
theorem flushed_out (c : Dev nD) (G : S8192x4096.Idx → EReal)
    (h : ∀ t : Fin cfg1.N, t.val % 4 = 3 → ∀ (p : Fin 2048) (q : Fin 1024) (R : Fin 8192) (C : Fin 4096),
          R.val = 2048 * (t.val / 16) + p.val → C.val = 1024 * ((t.val / 4) % 4) + q.val →
          ((dat (F := Ideal) V c).after 5 t : Vec Ideal S2048x1024 .f32) (ix2 p q) = G (ix2 R C))
    (t : Fin cfg1.N) (hf : (cfg1.win 5).flush t = true) :
    (dat (F := Ideal) V c).flushed 5 t = ((cfg1.win 5).blk t).view.read (Elt Ideal) G := by
  have hN : cfg1.N = 64 := N_1
  have ht : t.val < 64 := hN ▸ t.isLt
  have h3 : t.val % 4 = 3 := (flush1_5 t).mp hf
  obtain ⟨-, -, -, -, -, -, -, -, -, -, e0, e1⟩ := idx_facts t
  show (cfg1.win 5).cut (grid1.coords t) ((dat (F := Ideal) V c).after 5 t) = _
  funext j
  have hj0 : (j 0).val < 2048 := (j 0).isLt
  have hj1 : (j 1).val < 1024 := (j 1).isLt
  obtain ⟨p, hp⟩ : ∃ p : Fin 2048, p.val = (j 0).val := ⟨⟨(j 0).val, hj0⟩, rfl⟩
  obtain ⟨q, hq⟩ : ∃ q : Fin 1024, q.val = (j 1).val := ⟨⟨(j 1).val, hj1⟩, rfl⟩
  obtain ⟨R, hR⟩ : ∃ R : Fin 8192, R.val = 2048 * (t.val / 16) + p.val := ⟨⟨2048 * (t.val / 16) + p.val, by have := p.isLt; omega⟩, rfl⟩
  obtain ⟨C, hC⟩ : ∃ C : Fin 4096, C.val = 1024 * ((t.val / 4) % 4) + q.val := ⟨⟨1024 * ((t.val / 4) % 4) + q.val, by have := q.isLt; omega⟩, rfl⟩
  have hx : (cfg1.win 5).xinj (grid1.coords t) j = ix2 p q := by
    funext a
    match a with
    | ⟨0, _⟩ => exact Fin.ext hp.symm
    | ⟨1, _⟩ => exact Fin.ext hq.symm
  have hemb : ((cfg1.win 5).blk t).view.emb j = ix2 R C := by
    funext a; apply Fin.ext
    match a with
    | ⟨0, _⟩ => show win1_5.index t (0 : Fin 2) * 2048 + 1 * (j 0).val = R.val; rw [e0, hR, hp]; omega
    | ⟨1, _⟩ => show win1_5.index t (1 : Fin 2) * 1024 + 1 * (j 1).val = C.val; rw [e1, hC, hq]; omega
  show (dat (F := Ideal) V c).after 5 t ((cfg1.win 5).xinj (grid1.coords t) j) = G (((cfg1.win 5).blk t).view.emb j)
  rw [hx, hemb]
  exact h t h3 p q R C hR hC

/-- Entry (R, C) of the output array lies in the block written back at the last point of the reduction over `k` for
    its row block `R / 2048` and column block `C / 1024`: point `16·(R / 2048) + 4·(C / 1024) + 3`. -/
theorem cover5 (i : S8192x4096.Idx) :
    ∃ t : Fin cfg1.N, (cfg1.win 5).flush t = true ∧ i ∈ ((cfg1.win 5).blk t).view.set := by
  have hN : cfg1.N = 64 := N_1
  have hi0 : (i 0).val < 8192 := (i 0).isLt
  have hi1 : (i 1).val < 4096 := (i 1).isLt
  obtain ⟨t, ht⟩ : ∃ t : Fin cfg1.N, t.val = 16 * ((i 0).val / 2048) + 4 * ((i 1).val / 1024) + 3 :=
    ⟨⟨16 * ((i 0).val / 2048) + 4 * ((i 1).val / 1024) + 3, by omega⟩, rfl⟩
  obtain ⟨-, -, -, -, -, -, -, -, -, -, e0, e1⟩ := idx_facts t
  refine ⟨t, (flush1_5 t).mpr (by omega), ?_⟩
  rw [mem_blk5]
  intro a
  match a with
  | ⟨0, _⟩ =>
    show win1_5.index t (0 : Fin 2) * 2048 ≤ (i 0).val ∧ (i 0).val < win1_5.index t (0 : Fin 2) * 2048 + 2048
    rw [e0, ht]; omega
  | ⟨1, _⟩ =>
    show win1_5.index t (1 : Fin 2) * 1024 ≤ (i 1).val ∧ (i 1).val < win1_5.index t (1 : Fin 2) * 1024 + 1024
    rw [e1, ht]; omega

/-- After the 64 points the output array is `G`, for any `G` that agrees entry by entry with what the body left in the
    output block at each point that writes it back. -/
theorem arrAt_out (c : Dev nD) (G : S8192x4096.Idx → EReal)
    (h : ∀ t : Fin cfg1.N, t.val % 4 = 3 → ∀ (p : Fin 2048) (q : Fin 1024) (R : Fin 8192) (C : Fin 4096),
          R.val = 2048 * (t.val / 16) + p.val → C.val = 1024 * ((t.val / 4) % 4) + q.val →
          ((dat (F := Ideal) V c).after 5 t : Vec Ideal S2048x1024 .f32) (ix2 p q) = G (ix2 R C)) :
    (dat (F := Ideal) V c).arrAt 5 cfg1.N = G :=
  (dat (F := Ideal) V c).arrAt_eq_of_cover 5 G (flushed_out V c G h) cover5

end Cert.KernelIdeal.Acc

end
-- ==== Proof.Spec.lean ====
/-
  What both programs compute, as functions of the argument arrays over the extended reals.

  A weight entry (o, u) is the stored integer q(o, u), read signed, times the scale of the block of 64
  consecutive input columns that u lies in: s(o, u / 64).  The layer's output at batch b, position t and
  output feature o is

      ( sum_u x(b,t,u) * weight(o,u)  +  beta(o) )  +  ( sum_r ( sum_u x(b,t,u) * A(r,u) ) * B(o,r) ) * 2

  with u over the 4096 input features and r over the 16 low-rank directions.  Nothing here needs the
  entries to be finite: the two programs differ from this form only by regrouping sums and commuting
  products, which hold on all of the extended reals.
-/
import Idealize.ShloMosaic.PureOps.Ideal
import Idealize.ShloMosaic.PureOps.Ideal.Laws
import Idealize.ShloMosaic.Lib.ValueIdx

noncomputable section

namespace Cert.QLora

open Idealize.ShloMosaic Idealize.ShloMosaic.ValueIdx

/-- The float word 0x40000000 (two) as an extended real; kept as a word, never evaluated. -/
def two : Ideal .f32 := Ideal.ofBits .f32 0x40000000#32

/-- The block of 64 input columns that column `u` lies in. -/
def blockOf (u : Fin 4096) : Fin 64 := ⟨u.val / 64, by have := u.isLt; omega⟩

/-- Column `u` of the `k`-th block of 1024 columns (of an axis of extent 4096). -/
def col (k : Fin 4) (u : Fin 1024) : Fin 4096 := ⟨1024 * k.val + u.val, by have := k.isLt; have := u.isLt; omega⟩

/-- Row `p` of the `i`-th block of 2048 rows (of an axis of extent 8192): position `p` of batch `i`. -/
def row (i : Fin 4) (p : Fin 2048) : Fin 8192 := ⟨2048 * i.val + p.val, by have := i.isLt; have := p.isLt; omega⟩

/-- The dequantized weight: the stored integer read signed times its block's scale. -/
def weight (q : Vec Ideal (⟨2, ![4096, 4096]⟩ : Shape) .i32) (s : FVec Ideal (⟨2, ![4096, 64]⟩ : Shape) .f32)
    (o u : Fin 4096) : EReal :=
  (((q (ix2 o u)).toInt : ℝ) : EReal) * s (ix2 o (blockOf u))

/-- The layer's output at (b, t, o). -/
def result (x : FVec Ideal (⟨3, ![4, 2048, 4096]⟩ : Shape) .f32) (q : Vec Ideal (⟨2, ![4096, 4096]⟩ : Shape) .i32)
    (s : FVec Ideal (⟨2, ![4096, 64]⟩ : Shape) .f32) (A : FVec Ideal (⟨2, ![16, 4096]⟩ : Shape) .f32)
    (B : FVec Ideal (⟨2, ![4096, 16]⟩ : Shape) .f32) (β : FVec Ideal (⟨1, ![4096]⟩ : Shape) .f32)
    (b : Fin 4) (t : Fin 2048) (o : Fin 4096) : EReal :=
  ((∑ u : Fin 4096, x (ix3 b t u) * weight q s o u) + β (ix1 o))
    + (∑ r : Fin 16, (∑ u : Fin 4096, x (ix3 b t u) * A (ix2 r u)) * B (ix2 o r)) * two

end Cert.QLora

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibDotNT.lean ====
/-
  A matrix product with the right operand transposed, read at an entry.

  A product of an [M, K] array with an [N, K] array that contracts the second axis of both and has no batch axis: the
  sum over its one-axis contraction index, read at the output entry (p, q), is the sum over i of the left operand at
  (p, i) times the right operand at (q, i).
-/
import Idealize.ShloMosaic.PureOps.Ideal
import Idealize.ShloMosaic.PureOps.Ideal.Laws
import Idealize.ShloMosaic.Lib.ValueIdx
import proofs.«122666_j40604620816621_2_alg».proof.Proof.LibDotSum

noncomputable section

namespace Cert.LibDotNT

open Idealize.ShloMosaic Idealize.ShloMosaic.ValueIdx

variable {M K N : ℕ} (D : DotDims ⟨2, ![M, K]⟩ ⟨2, ![N, K]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (q, i). -/
theorem rhsIdx_eq (hlc : D.lhsContracting = [1]) (hrc : D.rhsContracting = [1]) (hlb : D.lhsBatch = [])
    (hrb : D.rhsBatch = []) (hln : D.lhsNonContracting = [0]) (hrn : D.rhsNonContracting = [0])
    (p : Fin M) (q : Fin N) (i : Fin K) :
    D.rhsIdx (ix2 p q) ((contrEquiv1 D K (rank_contr_one D hlc) (size_contr_K D hlc)).symm i) = ix2 q i := by
  funext a
  apply Fin.ext
  match a with
  | ⟨0, _⟩ =>
    unfold DotDims.rhsIdx
    have hb : (⟨0, by decide⟩ : Fin 2) ∉ D.rhsBatch := by rw [hrb]; exact List.not_mem_nil
    have hn : (⟨0, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])
  | ⟨1, _⟩ =>
    have h := D.rhsIdx_val_of_single (cr := (1 : Fin 2)) hrc (ix2 p q)
      ((contrEquiv1 D K (rank_contr_one D hlc) (size_contr_K D hlc)).symm i)
    refine h.trans ?_
    exact contrEquiv1_symm_val D K (rank_contr_one D hlc) (size_contr_K D hlc) i

/-- The product's sum at entry (p, q) is the sum over i of left (p, i) times right (q, i). -/
theorem sum_nt (hlc : D.lhsContracting = [1]) (hrc : D.rhsContracting = [1]) (hlb : D.lhsBatch = [])
    (hrb : D.rhsBatch = []) (hln : D.lhsNonContracting = [0]) (hrn : D.rhsNonContracting = [0])
    (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = ∑ i : Fin K, f (ix2 p i) * g (ix2 q i) :=
  Cert.LibDotSum.sum_contr_eq D K (rank_contr_one D hlc) (size_contr_K D hlc) f g (ix2 p q)
    (fun i => f (ix2 p i)) (fun i => g (ix2 q i))
    (fun i => congrArg f (lhsIdx_eq D hlc hlb hln p q i))
    (fun i => congrArg g (rhsIdx_eq D hlc hrc hlb hrb hln hrn p q i))

end Cert.LibDotNT

end
-- ==== Proof.ValPay.lean ====
/-
  The values the matrix-product kernel stores, read at an entry, over the extended reals.

  Over the extended reals a change of float format is the identity and a matrix product that contracts the second
  axis of both operands, accumulated into zero, is the plain sum of products.  So each stored value, read at the
  entry (p, q), is:

    the two initial stores               0
    the main accumulator's update        acc(p,q) + sum_u x(p,u) * w(q,u)
    the low-rank accumulator's update    acc(p,r) + sum_u x(p,u) * A(r,u)
    the output                           (acc(p,q) + beta(0,q)) + 2 * sum_r a(p,r) * B(q,r)

  where the bias is one row repeated down the rows, and 2 is the float word 0x40000000, kept as a word.
-/
import proofs.«122666_j40604620816621_2_alg».proof.Proof.Gen.KernelIdeal.Skeleton
import proofs.«122666_j40604620816621_2_alg».proof.Proof.Spec
import proofs.«122666_j40604620816621_2_alg».proof.Proof.LibDotNT
import Idealize.ShloMosaic.PureOps.Ideal.Laws
import Idealize.ShloMosaic.Lib.ValueIdx
import Idealize.ShloMosaic.Lib.Pipeline.Value
import Idealize.ShloMosaic.Lib.ValueLayout

noncomputable section

namespace Cert.QLora

open Cert.KernelIdeal Cert.KernelIdeal.Gen Idealize.ShloMosaic Idealize.ShloMosaic.ValueIdx

/-- The main accumulator's initial value: the zero word repeated, which is 0 at every entry. -/
theorem k1_pay1_apply (p : Fin 2048) (q : Fin 1024) : k1_pay1 (F := Ideal) (ix2 p q) = 0 := by
  unfold k1_pay1
  rw [shapeCast_self]
  exact Ideal.ofBits_zero_f32

/-- The low-rank accumulator's initial value: 0 at every entry. -/
theorem k1_pay2_apply (p : Fin 2048) (r : Fin 16) : k1_pay2 (F := Ideal) (ix2 p r) = 0 := by
  unfold k1_pay2
  rw [shapeCast_self]
  exact Ideal.ofBits_zero_f32

/-- The main accumulator's update at (p, q): its old value plus the sum over the 1024 columns u of the block of
    x(p, u) * w(q, u) (the weight block enters transposed: both second axes are contracted). -/
theorem k1_pay4_apply (v3 : Vec Ideal S2048x1024 .bf16) (v5 : Vec Ideal S1024x1024 .bf16) (v8 : Vec Ideal S2048x1024 .f32)
    (p : Fin 2048) (q : Fin 1024) :
    k1_pay4 (F := Ideal) v3 v5 v8 (ix2 p q) = v8 (ix2 p q) + ∑ u : Fin 1024, v3 (ix2 p u) * v5 (ix2 q u) := by
  unfold k1_pay4 k1_pay3
  rw [shapeCast_self, shapeCast_self, shapeCast_self]
  rw [addf_apply]
  simp only [matmul]
  rw [Ideal.matmul_constant_zero_apply]
  rw [Cert.LibDotNT.sum_nt _ rfl rfl rfl rfl rfl rfl]

/-- The low-rank accumulator's update at (p, r): its old value plus the sum over the block's columns u of
    x(p, u) * A(r, u); the narrowing of A to the short format is the identity. -/
theorem k1_pay5_apply (v3 : Vec Ideal S2048x1024 .bf16) (v13 : Vec Ideal S16x1024 .f32) (v16 : Vec Ideal S2048x16 .f32)
    (p : Fin 2048) (r : Fin 16) :
    k1_pay5 (F := Ideal) v3 v13 v16 (ix2 p r) = v16 (ix2 p r) + ∑ u : Fin 1024, v3 (ix2 p u) * v13 (ix2 r u) := by
  unfold k1_pay5 k1_pay3
  rw [shapeCast_self, shapeCast_self]
  rw [addf_apply]
  simp only [matmul]
  rw [Ideal.matmul_constant_zero_apply]
  rw [Cert.LibDotNT.sum_nt _ rfl rfl rfl rfl rfl rfl]
  rfl

/-- The output at (p, q): the main accumulator plus the bias row at q, plus 2 times the sum over the 16 low-rank
    directions r of a(p, r) * B(q, r); the two narrowings are the identity. -/
theorem k1_pay6_apply (v24 : Vec Ideal S1024x16 .f32) (v26 : Vec Ideal S2048x16 .f32) (v29 : Vec Ideal S2048x1024 .f32)
    (v30 : Vec Ideal S1x1024 .f32) (p : Fin 2048) (q : Fin 1024) :
    k1_pay6 (F := Ideal) v24 v26 v29 v30 (ix2 p q)
      = (v29 (ix2 p q) + v30 (ix2 0 q)) + two * ∑ r : Fin 16, v26 (ix2 p r) * v24 (ix2 q r) := by
  unfold k1_pay6
  rw [shapeCast_self]
  rw [addf_apply, addf_apply, mulf_apply, broadcast_apply, broadcastTo_1b_ab_apply]
  simp only [matmul]
  rw [Ideal.matmul_constant_zero_apply]
  rw [Cert.LibDotNT.sum_nt _ rfl rfl rfl rfl rfl rfl]
  rfl

end Cert.QLora

end
-- ==== Proof.SpecBlocks.lean ====
/-
  The product kernel's own arrangement of the layer.  A sum over the 4096 input features is taken as four
  partial sums over blocks of 1024 consecutive features, added left to right onto zero; the output entry at
  flat row R and output feature C is then

      ( blocked_u x2(R,u) * w(C,u)  +  bias(0,C) )  +  2 * sum_r ( blocked_u x2(R,u) * A(r,u) ) * B(C,r).
-/
import proofs.«122666_j40604620816621_2_alg».proof.Proof.Spec

noncomputable section

namespace Cert.QLora

open Idealize.ShloMosaic Idealize.ShloMosaic.ValueIdx

/-- A sum over 4096 features taken block by block, left to right, from zero. -/
def blocked (f : Fin 4096 → EReal) : EReal :=
  (((0 + ∑ u : Fin 1024, f (col 0 u)) + ∑ u : Fin 1024, f (col 1 u)) + ∑ u : Fin 1024, f (col 2 u)) + ∑ u : Fin 1024, f (col 3 u)

/-- The output entry the product kernel stores at flat row `R`, output feature `C`. -/
def kernelOut (x2 : FVec Ideal (⟨2, ![8192, 4096]⟩ : Shape) .bf16) (w : FVec Ideal (⟨2, ![4096, 4096]⟩ : Shape) .bf16)
    (A : FVec Ideal (⟨2, ![16, 4096]⟩ : Shape) .f32) (B : FVec Ideal (⟨2, ![4096, 16]⟩ : Shape) .f32)
    (bias2 : FVec Ideal (⟨2, ![1, 4096]⟩ : Shape) .f32) (R : Fin 8192) (C : Fin 4096) : EReal :=
  (blocked (fun u => x2 (ix2 R u) * w (ix2 C u)) + bias2 (ix2 0 C))
    + two * ∑ r : Fin 16, blocked (fun u => x2 (ix2 R u) * A (ix2 r u)) * B (ix2 C r)

end Cert.QLora

end
-- ==== Proof.AccValue.lean ====
/-
  What the product region leaves in its output array.

  Fix a core and the arrays as the region finds them: the narrowed activations x2 [8192, 4096], the
  dequantized weight w [4096, 4096], A [16, 4096], B [4096, 16] and the bias row [1, 4096].  Point t of the
  grid has i = t / 16, j = (t / 4) mod 4, k = t mod 4; its blocks are rows 2048 i + p of x2, rows 1024 j + q
  of w and B, columns 1024 k + u.  By induction on the point, after the body at t the product accumulator
  holds at (p, q) the sum, from zero, of the first k + 1 blocks of  x2(2048 i + p, ·) * w(1024 j + q, ·),
  and the low-rank accumulator at (p, r) the same for  x2(2048 i + p, ·) * A(r, ·):  at k = 0 both start
  from zero, and for k > 0 the point before has the same i and j.  At k = 3 all four blocks are in, and the
  block stored is  (product + bias) + 2 * sum_r low-rank(p, r) * B(1024 j + q, r).  The output array is
  covered by the blocks written back at the points with k = 3.
-/
import proofs.«122666_j40604620816621_2_alg».proof.Proof.AccPieces
import proofs.«122666_j40604620816621_2_alg».proof.Proof.AccBlocks
import proofs.«122666_j40604620816621_2_alg».proof.Proof.ValPay
import proofs.«122666_j40604620816621_2_alg».proof.Proof.SpecBlocks

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.QLora Idealize.ShloMosaic.ValueIdx

/-! ## Rows, columns and partial sums by position -/

/-- Row `p` of the block of rows point `n` works on. -/
def rowOf (n : ℕ) (p : Fin 2048) : Fin 8192 := ⟨(2048 * (n / 16) + p.val) % 8192, Nat.mod_lt _ (by norm_num)⟩
/-- Output feature `q` of the block of features point `n` works on. -/
def colOf (n : ℕ) (q : Fin 1024) : Fin 4096 := ⟨(1024 * ((n / 4) % 4) + q.val) % 4096, Nat.mod_lt _ (by norm_num)⟩
/-- Input feature `u` of the `k`-th block of 1024. -/
def colN (k : ℕ) (u : Fin 1024) : Fin 4096 := ⟨(1024 * k + u.val) % 4096, Nat.mod_lt _ (by norm_num)⟩
/-- The sum of the first `k + 1` blocks of `f`, left to right from zero. -/
def part (f : Fin 4096 → EReal) : ℕ → EReal
  | 0 => 0 + ∑ u : Fin 1024, f (colN 0 u)
  | k + 1 => part f k + ∑ u : Fin 1024, f (colN (k + 1) u)
theorem part_zero (f : Fin 4096 → EReal) : part f 0 = 0 + ∑ u : Fin 1024, f (colN 0 u) := rfl
theorem part_succ (f : Fin 4096 → EReal) (k : ℕ) : part f (k + 1) = part f k + ∑ u : Fin 1024, f (colN (k + 1) u) := rfl
theorem colN_eq (k : Fin 4) (u : Fin 1024) : colN k.val u = col k u :=
  Fin.ext (by simp only [colN, col]; have := k.isLt; have := u.isLt; omega)
/-- All four blocks: the kernel's blocked sum. -/
theorem part_three (f : Fin 4096 → EReal) : part f 3 = blocked f := by
  have e : ∀ (k : Fin 4) (u : Fin 1024), f (col k u) = f (colN k.val u) := fun k u => by rw [colN_eq]
  unfold blocked
  simp only [e]
  rfl

/-- One product of the sum into the product accumulator. -/
def mainTerm (x2 : FVec Ideal S8192x4096 .bf16) (w : FVec Ideal S4096x4096 .bf16) (R : Fin 8192) (C : Fin 4096) (U : Fin 4096) : EReal :=
  x2 (ix2 R U) * w (ix2 C U)
/-- One product of the sum into the low-rank accumulator. -/
def lowTerm (x2 : FVec Ideal S8192x4096 .bf16) (A : FVec Ideal S16x4096 .f32) (R : Fin 8192) (r : Fin 16) (U : Fin 4096) : EReal :=
  x2 (ix2 R U) * A (ix2 r U)
/-- The stored output entry from the two accumulators. -/
def outTerm (vA : Vec Ideal S2048x1024 .f32) (vB : Vec Ideal S2048x16 .f32) (B : FVec Ideal S4096x16 .f32) (bias2 : FVec Ideal S1x4096 .f32)
    (p : Fin 2048) (q : Fin 1024) (C : Fin 4096) : EReal :=
  (vA (ix2 p q) + bias2 (ix2 0 C)) + two * ∑ r : Fin 16, vB (ix2 p r) * B (ix2 C r)

section
variable (V : (c : Dev nD) → (b : Ref sig .tc) → Buf (Elt Ideal) ((c : Thread nD τ).loc b))

/-! ## The recursion in terms of the body's arithmetic -/

theorem acc_first (c : Dev nD) (t : Fin cfg1.N) (h0 : t.val % 4 = 0) :
    (outsAt V c t.val t.isLt).2.1 = k1_pay4 (iblk V c 0 t) (iblk V c 1 t) (k1_pay1 (F := Ideal)) := by
  have h1 : ¬t.val % 4 = 3 := by omega
  rw [outsAt_first V c t h0 h1]
  dsimp only
  exact accFirst_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t)
theorem low_first (c : Dev nD) (t : Fin cfg1.N) (h0 : t.val % 4 = 0) :
    (outsAt V c t.val t.isLt).2.2 = k1_pay5 (iblk V c 0 t) (iblk V c 2 t) (k1_pay2 (F := Ideal)) := by
  have h1 : ¬t.val % 4 = 3 := by omega
  rw [outsAt_first V c t h0 h1]
  dsimp only
  exact lowFirst_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) ((hcond0 t).mpr h0) (fun h => h1 ((hcond1 t).mp h)) (iblk V c 0 t) (iblk V c 1 t) (iblk V c 2 t)
theorem acc_next (c : Dev nD) (t : Fin cfg1.N) (h0 : ¬t.val % 4 = 0) :
    (outsAt V c t.val t.isLt).2.1 = k1_pay4 (iblk V c 0 t) (iblk V c 1 t) (prevAt V c t).2.1 := by
  by_cases h1 : t.val % 4 = 3
  · rw [outsAt_last V c t h0 h1]; dsimp only; exact accLast_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2
  · rw [outsAt_mid V c t h0 h1]; dsimp only; exact accMid_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2
theorem low_next (c : Dev nD) (t : Fin cfg1.N) (h0 : ¬t.val % 4 = 0) :
    (outsAt V c t.val t.isLt).2.2 = k1_pay5 (iblk V c 0 t) (iblk V c 2 t) (prevAt V c t).2.2 := by
  by_cases h1 : t.val % 4 = 3
  · rw [outsAt_last V c t h0 h1]; dsimp only; exact lowLast_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2
  · rw [outsAt_mid V c t h0 h1]; dsimp only; exact lowMid_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) (fun h => h1 ((hcond1 t).mp h)) (iblk V c 0 t) (iblk V c 1 t) (iblk V c 2 t) (prevAt V c t).2.1 (prevAt V c t).2.2
/-- At the last of the four points the output block is made from the two accumulators just updated. -/
theorem out_last (c : Dev nD) (t : Fin cfg1.N) (h1 : t.val % 4 = 3) :
    (outsAt V c t.val t.isLt).1 = k1_pay6 (iblk V c 3 t) (outsAt V c t.val t.isLt).2.2 (outsAt V c t.val t.isLt).2.1 (iblk V c 4 t) := by
  have h0 : ¬t.val % 4 = 0 := by omega
  rw [outsAt_last V c t h0 h1]
  dsimp only
  rw [outLast_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2, accLast_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2, lowLast_eq (F := Ideal) c (grid1.coords t) (ms0 t) (hs0 t) (ms1 t) (hs1 t) (ms2 t) (hs2 t) (ms3 t) (hs3 t) (ms4 t) (hs4 t) (ms5 t) (hs5 t) scA (Memref.isWhole_whole _) scB (Memref.isWhole_whole _) (fun h => h0 ((hcond0 t).mp h)) ((hcond1 t).mpr h1) (iblk V c 0 t) (iblk V c 1 t) (iblk V c 2 t) (iblk V c 3 t) (iblk V c 4 t) (prevAt V c t).2.1 (prevAt V c t).2.2]

/-! ## The blocks' entries in the arrays -/

theorem rowOf_val (t : Fin cfg1.N) (p : Fin 2048) : (rowOf t.val p).val = 2048 * (t.val / 16) + p.val := by
  have hN : t.val < 64 := lt_of_lt_of_eq t.isLt (show cfg1.N = 64 from N_1)
  have := p.isLt; simp only [rowOf]; omega
theorem colOf_val (t : Fin cfg1.N) (q : Fin 1024) : (colOf t.val q).val = 1024 * ((t.val / 4) % 4) + q.val := by
  have := q.isLt; simp only [colOf]; omega
theorem colN_val (t : Fin cfg1.N) (u : Fin 1024) : (colN (t.val % 4) u).val = 1024 * (t.val % 4) + u.val := by
  have := u.isLt; simp only [colN]; omega

/-- The products summed into the product accumulator at (p, q) by the points of position `n`'s (i, j). -/
def fMain (c : Dev nD) (n : ℕ) (p : Fin 2048) (q : Fin 1024) : Fin 4096 → EReal :=
  mainTerm (V c main_v2) (V c main_v0) (rowOf n p) (colOf n q)
/-- The products summed into the low-rank accumulator at (p, r). -/
def fLow (c : Dev nD) (n : ℕ) (p : Fin 2048) (r : Fin 16) : Fin 4096 → EReal :=
  lowTerm (V c main_v2) (V c main_arg3) (rowOf n p) r

/-- One update of the product accumulator at point `t`, entry (p, q): what it held plus this block's products. -/
theorem pay4_at (c : Dev nD) (t : Fin cfg1.N) (v8 : Vec Ideal S2048x1024 .f32) (p : Fin 2048) (q : Fin 1024) :
    k1_pay4 (F := Ideal) (iblk V c 0 t) (iblk V c 1 t) v8 (ix2 p q)
      = v8 (ix2 p q) + ∑ u : Fin 1024, fMain V c t.val p q (colN (t.val % 4) u) := by
  rw [k1_pay4_apply]
  refine congrArg (v8 (ix2 p q) + ·) (Finset.sum_congr rfl fun u _ => ?_)
  rw [iblk0_apply V c t p u (rowOf t.val p) (colN (t.val % 4) u) (rowOf_val t p) (colN_val t u),
    iblk1_apply V c t q u (colOf t.val q) (colN (t.val % 4) u) (colOf_val t q) (colN_val t u)]
  rfl
/-- One update of the low-rank accumulator at point `t`, entry (p, r). -/
theorem pay5_at (c : Dev nD) (t : Fin cfg1.N) (v16 : Vec Ideal S2048x16 .f32) (p : Fin 2048) (r : Fin 16) :
    k1_pay5 (F := Ideal) (iblk V c 0 t) (iblk V c 2 t) v16 (ix2 p r)
      = v16 (ix2 p r) + ∑ u : Fin 1024, fLow V c t.val p r (colN (t.val % 4) u) := by
  rw [k1_pay5_apply]
  refine congrArg (v16 (ix2 p r) + ·) (Finset.sum_congr rfl fun u _ => ?_)
  rw [iblk0_apply V c t p u (rowOf t.val p) (colN (t.val % 4) u) (rowOf_val t p) (colN_val t u),
    iblk2_apply V c t r u (colN (t.val % 4) u) (colN_val t u)]
  rfl
/-- The stored output entry at point `t`, entry (p, q), from the two accumulators. -/
theorem pay6_at (c : Dev nD) (t : Fin cfg1.N) (vB : Vec Ideal S2048x16 .f32) (vA : Vec Ideal S2048x1024 .f32) (p : Fin 2048) (q : Fin 1024)
    (C : Fin 4096) (hC : C.val = 1024 * ((t.val / 4) % 4) + q.val) :
    k1_pay6 (F := Ideal) (iblk V c 3 t) vB vA (iblk V c 4 t) (ix2 p q) = outTerm vA vB (V c main_arg4) (V c main_v3) p q C := by
  rw [k1_pay6_apply, iblk4_apply V c t q C hC]
  unfold outTerm
  refine congrArg (fun z => (vA (ix2 p q) + (V c main_v3 : S1x4096.Idx → Elt Ideal .f32) (ix2 0 C)) + two * z) (Finset.sum_congr rfl fun r _ => ?_)
  rw [iblk3_apply V c t q r C hC]

/-! ## The accumulators after each point -/

theorem inv (c : Dev nD) : ∀ (n : ℕ) (hn : n < cfg1.N),
    (∀ (p : Fin 2048) (q : Fin 1024), ((outsAt V c n hn).2.1 : Vec Ideal S2048x1024 .f32) (ix2 p q) = part (fMain V c n p q) (n % 4))
    ∧ (∀ (p : Fin 2048) (r : Fin 16), ((outsAt V c n hn).2.2 : Vec Ideal S2048x16 .f32) (ix2 p r) = part (fLow V c n p r) (n % 4)) := by
  intro n
  induction n with
  | zero =>
    intro hn
    refine ⟨fun p q => ?_, fun p r => ?_⟩
    · rw [show (outsAt V c 0 hn).2.1 = _ from acc_first V c ⟨0, hn⟩ rfl, pay4_at V c ⟨0, hn⟩, k1_pay1_apply]
      rfl
    · rw [show (outsAt V c 0 hn).2.2 = _ from low_first V c ⟨0, hn⟩ rfl, pay5_at V c ⟨0, hn⟩, k1_pay2_apply]
      rfl
  | succ n ih =>
    intro hn
    obtain ⟨ihA, ihB⟩ := ih (Nat.lt_of_succ_lt hn)
    by_cases h0 : (n + 1) % 4 = 0
    · refine ⟨fun p q => ?_, fun p r => ?_⟩
      · rw [show (outsAt V c (n + 1) hn).2.1 = _ from acc_first V c ⟨n + 1, hn⟩ h0, pay4_at V c ⟨n + 1, hn⟩, k1_pay1_apply]
        show 0 + ∑ u : Fin 1024, fMain V c (n + 1) p q (colN ((n + 1) % 4) u) = part (fMain V c (n + 1) p q) ((n + 1) % 4)
        rw [h0]; rfl
      · rw [show (outsAt V c (n + 1) hn).2.2 = _ from low_first V c ⟨n + 1, hn⟩ h0, pay5_at V c ⟨n + 1, hn⟩, k1_pay2_apply]
        show 0 + ∑ u : Fin 1024, fLow V c (n + 1) p r (colN ((n + 1) % 4) u) = part (fLow V c (n + 1) p r) ((n + 1) % 4)
        rw [h0]; rfl
    · have hk : (n + 1) % 4 = n % 4 + 1 := by omega
      refine ⟨fun p q => ?_, fun p r => ?_⟩
      · have hr : rowOf n p = rowOf (n + 1) p := Fin.ext (by simp only [rowOf]; omega)
        have hc : colOf n q = colOf (n + 1) q := Fin.ext (by simp only [colOf]; omega)
        have hf : fMain V c n p q = fMain V c (n + 1) p q := by unfold fMain; rw [hr, hc]
        rw [show (outsAt V c (n + 1) hn).2.1 = _ from acc_next V c ⟨n + 1, hn⟩ h0, pay4_at V c ⟨n + 1, hn⟩]
        show ((outsAt V c n (Nat.lt_of_succ_lt hn)).2.1 : Vec Ideal S2048x1024 .f32) (ix2 p q) + ∑ u : Fin 1024, fMain V c (n + 1) p q (colN ((n + 1) % 4) u) = part (fMain V c (n + 1) p q) ((n + 1) % 4)
        rw [ihA p q, hk, hf, part_succ]
      · have hr : rowOf n p = rowOf (n + 1) p := Fin.ext (by simp only [rowOf]; omega)
        have hf : fLow V c n p r = fLow V c (n + 1) p r := by unfold fLow; rw [hr]
        rw [show (outsAt V c (n + 1) hn).2.2 = _ from low_next V c ⟨n + 1, hn⟩ h0, pay5_at V c ⟨n + 1, hn⟩]
        show ((outsAt V c n (Nat.lt_of_succ_lt hn)).2.2 : Vec Ideal S2048x16 .f32) (ix2 p r) + ∑ u : Fin 1024, fLow V c (n + 1) p r (colN ((n + 1) % 4) u) = part (fLow V c (n + 1) p r) ((n + 1) % 4)
        rw [ihB p r, hk, hf, part_succ]

/-! ## The output array -/

/-- After its 64 points the region's output array holds the kernel's blocked form of the layer at every
    entry, in terms of the arrays as the region finds them. -/
theorem out_value (c : Dev nD) :
    (dat (F := Ideal) V c).arrAt 5 cfg1.N
      = fun j => kernelOut (V c main_v2) (V c main_v0) (V c main_arg3) (V c main_arg4) (V c main_v3) (j 0) (j 1) := by
  refine arrAt_out V c _ (fun t h3 p q R C hR hC => ?_)
  show ((dat (F := Ideal) V c).after 5 t : Vec Ideal S2048x1024 .f32) (ix2 p q)
    = kernelOut (V c main_v2) (V c main_v0) (V c main_arg3) (V c main_arg4) (V c main_v3) R C
  obtain ⟨hA, hB⟩ := inv V c t.val t.isLt
  have eR : rowOf t.val p = R := Fin.ext (by rw [rowOf_val, hR])
  have eC : colOf t.val q = C := Fin.ext (by rw [colOf_val, hC])
  rw [after_5, out_last V c t h3, pay6_at V c t _ _ p q C hC]
  unfold outTerm kernelOut
  rw [hA p q, h3, part_three]
  have hsum : ∑ r : Fin 16, ((outsAt V c t.val t.isLt).2.2 : Vec Ideal S2048x16 .f32) (ix2 p r) * (V c main_arg4 : FVec Ideal S4096x16 .f32) (ix2 C r)
      = ∑ r : Fin 16, blocked (fLow V c t.val p r) * (V c main_arg4 : FVec Ideal S4096x16 .f32) (ix2 C r) :=
    Finset.sum_congr rfl fun r _ => by rw [hB p r, h3, part_three]
  rw [hsum]
  unfold fMain fLow
  rw [eR, eC]
  rfl

end

end Cert.KernelIdeal.Acc

end
-- ==== Proof.DeqPay.lean ====
/- The dequantisation body's product, read at one entry.

   The body takes a block of 256 rows of scales, one per group of 64 columns (64 groups), and a block of 256 rows of
   4096 integers.  It spreads each scale over its group — [256, 64] seen as [256, 64, 1], repeated along the last axis to
   [256, 64, 64], flattened to [256, 4096], so that column u carries the scale of group u / 64 —, converts the integers
   to reals (signed), multiplies, and narrows the format, which changes nothing on the extended reals. -/
import proofs.«122666_j40604620816621_2_alg».proof.Proof.Gen.KernelIdeal.Skeleton
import proofs.«122666_j40604620816621_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.QLora

open Idealize.ShloMosaic Idealize.ShloMosaic.ValueIdx
open Cert.KernelIdeal Cert.KernelIdeal.Gen

/-- The scales spread over their groups: column `u` of row `p` reads the scale of group `u / 64` of row `p`.
    Row-major positions: (p, u) of [256, 4096] is (p, u / 64, u % 64) of [256, 64, 64]; the repeated axis reads
    position 0 of the unit axis; (p, g, 0) of [256, 64, 1] is (p, g) of [256, 64]. -/
theorem spread_apply (v0 : Vec Ideal S256x64 .f32) (p : Fin 256) (u : Fin 4096) :
    shapeCast S256x4096 (broadcastTo S256x64x64 (shapeCast S256x64x1 v0 shapeCasts_S256x64_S256x64x1)
        broadcasts_S256x64x1_S256x64x64) shapeCasts_S256x64x64_S256x4096 (ix2 p u)
      = v0 (ix2 p (blockOf u)) := by
  have hu : u.val < 4096 := u.isLt
  have hp : p.val < 256 := p.isLt
  refine (shapeCast_apply _ _ (ix2 p u) (ix3 p (blockOf u) (⟨u.val % 64, by omega⟩ : Fin 64)) ?_).trans ?_
  · rw [Shape.rowMajor_val_three, Shape.rowMajor_val_two]
    show (p.val * 64 + u.val / 64) * 64 + u.val % 64 = p.val * 4096 + u.val
    omega
  refine (broadcastTo_apply _ _ (ix3 p (blockOf u) (⟨u.val % 64, by omega⟩ : Fin 64)) (ix3 p (blockOf u) (0 : Fin 1)) ?_).trans ?_
  · intro a
    match a with
    | ⟨0, _⟩ => rfl
    | ⟨1, _⟩ => rfl
    | ⟨2, _⟩ => rfl
  refine shapeCast_apply _ _ (ix3 p (blockOf u) (0 : Fin 1)) (ix2 p (blockOf u)) ?_
  rw [Shape.rowMajor_val_three, Shape.rowMajor_val_two]
  show p.val * 64 + u.val / 64 = (p.val * 64 + u.val / 64) * 1 + 0
  omega

/-- An entry of the body's product: the integer read signed, times the scale of its group. -/
theorem k0_pay1_apply (v0 : Vec Ideal S256x64 .f32) (v4 : Vec Ideal S256x4096 .i32) (p : Fin 256) (u : Fin 4096) :
    k0_pay1 (F := Ideal) v0 v4 (ix2 p u) = (((v4 (ix2 p u)).toInt : ℝ) : EReal) * v0 (ix2 p (blockOf u)) := by
  unfold k0_pay1
  exact congrArg (fun z : EReal => (((v4 (ix2 p u)).toInt : ℝ) : EReal) * z) (spread_apply v0 p u)

end Cert.QLora

end
-- ==== Proof.DeqValue.lean ====
/- After its 16 points the dequantisation region has written the whole dequantised weight.

   Point `t` is handed rows `256·t … 256·t + 255` of the integers and of the scales and writes back, over the same rows
   of the output array, the products: entry (p, u) of the block written at point `t` is the integer at row `256·t + p`,
   column `u`, read signed, times the scale of row `256·t + p` and group `u / 64` — entry (256·t + p, u) of the weight.
   Row `r` of the output array lies in the block of point `r / 256`, so the 16 blocks cover the array, and the array
   ends as the weight, whatever order the blocks were written in. -/
import proofs.«122666_j40604620816621_2_alg».proof.Proof.DeqBody
import proofs.«122666_j40604620816621_2_alg».proof.Proof.DeqPay
import proofs.«122666_j40604620816621_2_alg».proof.Proof.Spec
import Idealize.ShloMosaic.Lib.Pipeline.Value

set_option maxRecDepth 16384

noncomputable section

namespace Cert.KernelIdeal.Deq

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The weight as an array: what the output array ends holding. -/
abbrev weightArr (c : Dev nD) : S4096x4096.Idx → EReal :=
  fun j => Cert.QLora.weight (V c main_arg1) (V c main_arg2) (j 0) (j 1)

/-- The three windows' block indices at point `t`: block `t` of the rows, block 0 of the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The integers' block at point `t`, entry (p, u): the integer at row `256·t + p`, column `u`. -/
theorem iblk0_apply (c : Dev nD) (t : Fin cfg0.N) (p : Fin 256) (u : Fin 4096) (r : Fin 4096)
    (hr : r.val = 256 * t.val + p.val) :
    (iblk V c 0 t : Vec Ideal S256x4096 .i32) (ix2 p u) = (V c main_arg1 : S4096x4096.Idx → Elt Ideal .i32) (ix2 r u) := by
  obtain ⟨e0, e1, -, -, -, -⟩ := idx_facts t
  unfold iblk
  rw [View.read_apply]
  show V c main_arg1 _ = V c main_arg1 _
  refine congrArg (V c main_arg1) (funext fun a => Fin.ext ?_)
  match a with
  | ⟨0, _⟩ => show win0_0.index t (0 : Fin 2) * 256 + 1 * p.val = r.val; rw [e0, hr]; omega
  | ⟨1, _⟩ => show win0_0.index t (1 : Fin 2) * 4096 + 1 * u.val = u.val; rw [e1]; omega

/-- The scales' block at point `t`, entry (p, g): the scale of row `256·t + p`, group `g`. -/
theorem iblk1_apply (c : Dev nD) (t : Fin cfg0.N) (p : Fin 256) (g : Fin 64) (r : Fin 4096)
    (hr : r.val = 256 * t.val + p.val) :
    (iblk V c 1 t : Vec Ideal S256x64 .f32) (ix2 p g) = (V c main_arg2 : S4096x64.Idx → Elt Ideal .f32) (ix2 r g) := by
  obtain ⟨-, -, e0, e1, -, -⟩ := idx_facts t
  unfold iblk
  rw [View.read_apply]
  show V c main_arg2 _ = V c main_arg2 _
  refine congrArg (V c main_arg2) (funext fun a => Fin.ext ?_)
  match a with
  | ⟨0, _⟩ => show win0_1.index t (0 : Fin 2) * 256 + 1 * p.val = r.val; rw [e0, hr]; omega
  | ⟨1, _⟩ => show win0_1.index t (1 : Fin 2) * 64 + 1 * g.val = g.val; rw [e1]; omega

/-- What point `t` writes back is block `t` of the weight. -/
theorem flushed_eq (c : Dev nD) (t : Fin cfg0.N) :
    (dat (F := Ideal) V c).flushed 2 t = ((cfg0.win 2).blk t).view.read (Elt Ideal) (weightArr V c) := by
  have hN : cfg0.N = 16 := N_0
  have ht : t.val < 16 := hN ▸ t.isLt
  obtain ⟨-, -, -, -, e0, e1⟩ := idx_facts t
  show (cfg0.win 2).cut (grid0.coords t) ((dat (F := Ideal) V c).after 2 t) = _
  rw [after_2]
  funext j
  have hj0 : (j 0).val < 256 := (j 0).isLt
  have hj1 : (j 1).val < 4096 := (j 1).isLt
  -- the entry's place in the block, and in the array: row `256·t + p`, the same column
  obtain ⟨p, hp⟩ : ∃ p : Fin 256, p.val = (j 0).val := ⟨⟨(j 0).val, hj0⟩, rfl⟩
  obtain ⟨u, hu⟩ : ∃ u : Fin 4096, u.val = (j 1).val := ⟨⟨(j 1).val, hj1⟩, rfl⟩
  obtain ⟨r, hr⟩ : ∃ r : Fin 4096, r.val = 256 * t.val + p.val := ⟨⟨256 * t.val + p.val, by have := p.isLt; omega⟩, rfl⟩
  have hx : (cfg0.win 2).xinj (grid0.coords t) j = ix2 p u := by
    funext a
    match a with
    | ⟨0, _⟩ => exact Fin.ext hp.symm
    | ⟨1, _⟩ => exact Fin.ext hu.symm
  have hemb : ((cfg0.win 2).blk t).view.emb j = ix2 r u := by
    funext a; apply Fin.ext
    match a with
    | ⟨0, _⟩ => show win0_2.index t (0 : Fin 2) * 256 + 1 * (j 0).val = r.val; rw [e0, hr, hp]; omega
    | ⟨1, _⟩ => show win0_2.index t (1 : Fin 2) * 4096 + 1 * (j 1).val = u.val; rw [e1, hu]; omega
  show k0_pay1 (iblk V c 1 t) (iblk V c 0 t) ((cfg0.win 2).xinj (grid0.coords t) j)
    = weightArr V c (((cfg0.win 2).blk t).view.emb j)
  rw [hx, hemb]
  refine (Cert.QLora.k0_pay1_apply _ _ p u).trans ?_
  show _ = Cert.QLora.weight (V c main_arg1) (V c main_arg2) r u
  unfold Cert.QLora.weight
  rw [iblk0_apply V c t p u r hr, iblk1_apply V c t p (Cert.QLora.blockOf u) r hr]

/-- An index of the output array is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Row `r` of the output array lies in the block written back at point `r / 256`: the blocks cover the array. -/
theorem cover (i : S4096x4096.Idx) :
    ∃ t : Fin cfg0.N, (cfg0.win 2).flush t = true ∧ i ∈ ((cfg0.win 2).blk t).view.set := by
  have hN : cfg0.N = 16 := N_0
  have hi0 : (i 0).val < 4096 := (i 0).isLt
  have hi1 : (i 1).val < 4096 := (i 1).isLt
  obtain ⟨t, ht⟩ : ∃ t : Fin cfg0.N, t.val = (i 0).val / 256 := ⟨⟨(i 0).val / 256, by omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e0, ht]; omega
  | ⟨1, _⟩ =>
    show win0_2.index t (1 : Fin 2) * 4096 ≤ (i 1).val ∧ (i 1).val < win0_2.index t (1 : Fin 2) * 4096 + 4096
    rw [e1]; omega

/-- After the 16 points the output array is the whole dequantised weight. -/
theorem weight_array (c : Dev nD) :
    (dat (F := Ideal) V c).arrAt 2 cfg0.N = fun j => Cert.QLora.weight (V c main_arg1) (V c main_arg2) (j 0) (j 1) :=
  (dat (F := Ideal) V c).arrAt_eq_of_cover 2 (weightArr V c) (fun t _ => flushed_eq V c t) cover

end Cert.KernelIdeal.Deq

end
-- ==== Proof.ValSum.lean ====
/-
  A sum over 4096 columns, cut into four consecutive blocks of 1024 columns.

  Column 1024 * k + u of the long axis is column u of block k.  This is a bijection between pairs (k, u) and the
  4096 columns, so the long sum is the sum over k of the block sums; written out for the four blocks, added from
  left to right starting from zero.  Only commutativity and associativity of addition are used, so it holds for
  sums of extended reals without any finiteness.
-/
import Mathlib.Algebra.BigOperators.Fin
import Mathlib.Algebra.BigOperators.Group.Finset.Basic
import proofs.«122666_j40604620816621_2_alg».proof.Proof.Spec

noncomputable section

namespace Cert.QLora

/-- Pairs (block, column in the block) are the 4096 columns. -/
def colEquiv : Fin 4 × Fin 1024 ≃ Fin 4096 where
  toFun x := col x.1 x.2
  invFun u := (⟨u.val / 1024, by have := u.isLt; omega⟩, ⟨u.val % 1024, by omega⟩)
  left_inv x := by
    obtain ⟨k, u⟩ := x
    have hk := k.isLt
    have hu := u.isLt
    apply Prod.ext
    · apply Fin.ext
      show (1024 * k.val + u.val) / 1024 = k.val
      omega
    · apply Fin.ext
      show (1024 * k.val + u.val) % 1024 = u.val
      omega
  right_inv u := by
    apply Fin.ext
    show 1024 * (u.val / 1024) + u.val % 1024 = u.val
    omega

/-- The sum over all columns is the four block sums added left to right from zero. -/
theorem sum_blocks (f : Fin 4096 → EReal) :
    ∑ u : Fin 4096, f u
      = (((0 + ∑ u : Fin 1024, f (col 0 u)) + ∑ u : Fin 1024, f (col 1 u)) + ∑ u : Fin 1024, f (col 2 u))
          + ∑ u : Fin 1024, f (col 3 u) := by
  rw [← Equiv.sum_comp colEquiv f, Fintype.sum_prod_type, Fin.sum_univ_four, zero_add]
  rfl

/-- The block of 64 columns that column u of block k lies in: 16 * k + u / 64. -/
theorem blockOf_col (k : Fin 4) (u : Fin 1024) : (blockOf (col k u)).val = 16 * k.val + u.val / 64 := by
  show (1024 * k.val + u.val) / 64 = 16 * k.val + u.val / 64
  omega

end Cert.QLora

end
-- ==== Proof.ValFin.lean ====
/-
  The value the blocked computation forms, as the value of the whole sums.

  The blocked computation adds each long sum over the 4096 input features as four block sums of 1024 features, left
  to right from zero, and multiplies the low-rank sum by the constant two on the left.  The whole-sum form adds each
  long sum at once and multiplies by two on the right.  The two agree: a sum over the 4096 features is its four
  block sums, and multiplication commutes.  No distributivity and no finiteness is used.
-/
import proofs.«122666_j40604620816621_2_alg».proof.Proof.Spec
import proofs.«122666_j40604620816621_2_alg».proof.Proof.ValSum

noncomputable section

namespace Cert.QLora

/-- With f the main product's terms, g r the terms of the projection on direction r, Bc r the expansion's factor and
    β the bias: the blocked form equals the whole-sum form. -/
theorem kernel_form (f : Fin 4096 → EReal) (g : Fin 16 → Fin 4096 → EReal) (Bc : Fin 16 → EReal) (β : EReal) :
    (((((0 + ∑ u : Fin 1024, f (col 0 u)) + ∑ u : Fin 1024, f (col 1 u)) + ∑ u : Fin 1024, f (col 2 u))
          + ∑ u : Fin 1024, f (col 3 u)) + β)
        + two * ∑ r : Fin 16,
            ((((0 + ∑ u : Fin 1024, g r (col 0 u)) + ∑ u : Fin 1024, g r (col 1 u)) + ∑ u : Fin 1024, g r (col 2 u))
              + ∑ u : Fin 1024, g r (col 3 u)) * Bc r
      = ((∑ u : Fin 4096, f u) + β) + (∑ r : Fin 16, (∑ u : Fin 4096, g r u) * Bc r) * two := by
  rw [← sum_blocks f, mul_comm two]
  rw [Finset.sum_congr rfl fun r _ => congrArg (· * Bc r) (sum_blocks (g r)).symm]

end Cert.QLora

end
-- ==== Proof.ValHost.lean ====
/-
  The host operations between the two regions, read at an index, and the result buffer as the layer's output.

  Before the product region three host operations run: the activations [4, 2048, 4096] are flattened to rows
  [8192, 4096] (row 2048 * b + t is position t of batch b) and narrowed to the short float format, which over the
  extended reals is the identity; the bias [4096] is laid out as one row [1, 4096].  The weight array is what the
  dequantizing region left, untouched by these operations; the two low-rank factors are the launch arguments.  After
  the product region one host operation cuts the rows back into batches.  So the result buffer at (b, t, o) is the
  product region's output at row 2048 * b + t, feature o; and with that output in its blocked form (four block sums per
  long sum, the constant two on the left) it is the layer's output, by regrouping the block sums and commuting the
  product with two.
-/
import proofs.«122666_j40604620816621_2_alg».proof.Proof.RunFrame
import proofs.«122666_j40604620816621_2_alg».proof.Proof.DeqValue
import proofs.«122666_j40604620816621_2_alg».proof.Proof.SpecBlocks
import proofs.«122666_j40604620816621_2_alg».proof.Proof.ValFin
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QLora Idealize.ShloMosaic.ValueIdx

variable (m : (ℓ : Loc nD τ sig) → Buf (Elt Ideal) ℓ) (ρ : Dev nD → PrngReg)

/-! ## The three reshapes read at an index -/

section Reshapes
variable {α : Type}

/-- The [4, 2048, 4096] array flattened to [8192, 4096]: row 2048 * i + p is position p of batch i. -/
theorem reshape_rows_apply (X : (⟨3, ![4, 2048, 4096]⟩ : Shape).Idx → α)
    (h : (⟨3, ![4, 2048, 4096]⟩ : Shape).ShapeCasts ⟨2, ![8192, 4096]⟩) (i : Fin 4) (p : Fin 2048) (u : Fin 4096) :
    shapeCast ⟨2, ![8192, 4096]⟩ X h (ix2 (row i p) u) = X (ix3 i p u) :=
  shapeCast_apply X h _ _ (by
    rw [Shape.rowMajor_val_three, Shape.rowMajor_val_two]
    show (i.val * 2048 + p.val) * 4096 + u.val = (2048 * i.val + p.val) * 4096 + u.val
    omega)

/-- The [8192, 4096] array cut back to [4, 2048, 4096]: entry (b, t, o) is row 2048 * b + t. -/
theorem reshape_batch_apply (Y : (⟨2, ![8192, 4096]⟩ : Shape).Idx → α)
    (h : (⟨2, ![8192, 4096]⟩ : Shape).ShapeCasts ⟨3, ![4, 2048, 4096]⟩) (b : Fin 4) (t : Fin 2048) (o : Fin 4096) :
    shapeCast ⟨3, ![4, 2048, 4096]⟩ Y h (ix3 b t o) = Y (ix2 (row b t) o) :=
  shapeCast_apply Y h _ _ (by
    rw [Shape.rowMajor_val_three, Shape.rowMajor_val_two]
    show (2048 * b.val + t.val) * 4096 + o.val = (b.val * 2048 + t.val) * 4096 + o.val
    omega)

/-- The bias laid out as a one-row array. -/
theorem reshape_bias_apply (β : (⟨1, ![4096]⟩ : Shape).Idx → α)
    (h : (⟨1, ![4096]⟩ : Shape).ShapeCasts ⟨2, ![1, 4096]⟩) (o : Fin 4096) :
    shapeCast ⟨2, ![1, 4096]⟩ β h (ix2 (0 : Fin 1) o) = β (ix1 o) :=
  shapeCast_a_1a_apply β h 0 o

end Reshapes

/-! ## The blocked form is the layer's output -/

/-- With the flat row's activations, the weight row and the bias row read as the layer's arguments, the value the
    product kernel stores at flat row 2048 * b + t, output feature o is the layer's output at (b, t, o). -/
theorem kernelOut_eq_result (x : FVec Ideal (⟨3, ![4, 2048, 4096]⟩ : Shape) .f32) (q : Vec Ideal (⟨2, ![4096, 4096]⟩ : Shape) .i32)
    (s : FVec Ideal (⟨2, ![4096, 64]⟩ : Shape) .f32) (A : FVec Ideal (⟨2, ![16, 4096]⟩ : Shape) .f32)
    (B : FVec Ideal (⟨2, ![4096, 16]⟩ : Shape) .f32) (β : FVec Ideal (⟨1, ![4096]⟩ : Shape) .f32)
    (x2 : FVec Ideal (⟨2, ![8192, 4096]⟩ : Shape) .bf16) (w : FVec Ideal (⟨2, ![4096, 4096]⟩ : Shape) .bf16)
    (bias2 : FVec Ideal (⟨2, ![1, 4096]⟩ : Shape) .f32) (b : Fin 4) (t : Fin 2048) (o : Fin 4096)
    (hx : ∀ u : Fin 4096, x2 (ix2 (row b t) u) = x (ix3 b t u)) (hw : ∀ u : Fin 4096, w (ix2 o u) = weight q s o u)
    (hb : bias2 (ix2 0 o) = β (ix1 o)) :
    kernelOut x2 w A B bias2 (row b t) o = result x q s A B β b t o := by
  unfold kernelOut blocked result
  simp only [hx, hw, hb]
  exact kernel_form (fun u => x (ix3 b t u) * weight q s o u) (fun r u => x (ix3 b t u) * A (ix2 r u))
    (fun r => B (ix2 o r)) (β (ix1 o))

/-! ## The product region's entry contents -/

/-- The activations the product region reads: the argument flattened to rows, then narrowed. -/
theorem V2_v2_eq (c : Dev nD) :
    V2 (F := Ideal) m ρ c main_v2
      = truncf (F := Ideal) .bf16 (shapeCast S8192x4096 (W1 m ρ c (Proc.devRef .tc main_arg0) : S4x2048x4096.Idx → Ideal .f32) shapeCasts_S4x2048x4096_S8192x4096) bitsLt_bf16_f32 := by
  show StableHlo.after hostOps1 (W1 m ρ c) (Proc.devRef .tc main_v2) = _
  after_results
  rfl

/-- Flat row 2048 * b + t, feature u of the activations is x(b, t, u): the narrowing is the identity. -/
theorem V2_x (c : Dev nD) (b : Fin 4) (t : Fin 2048) (u : Fin 4096) :
    (V2 (F := Ideal) m ρ c main_v2 : S8192x4096.Idx → EReal) (ix2 (row b t) u)
      = (m ((c : Thread nD τ).loc main_arg0) : S4x2048x4096.Idx → EReal) (ix3 b t u) := by
  rw [V2_v2_eq, W1_of_ne m ρ c main_arg0 (by decide)]
  exact reshape_rows_apply _ _ b t u

/-- The bias the product region reads: the argument laid out as one row. -/
theorem V2_v3_eq (c : Dev nD) :
    V2 (F := Ideal) m ρ c main_v3
      = shapeCast S1x4096 (W1 m ρ c (Proc.devRef .tc main_arg5) : S4096.Idx → Ideal .f32) shapeCasts_S4096_S1x4096 := by
  show StableHlo.after hostOps1 (W1 m ρ c) (Proc.devRef .tc main_v3) = _
  after_results
  rfl

theorem V2_bias (c : Dev nD) (o : Fin 4096) :
    (V2 (F := Ideal) m ρ c main_v3 : S1x4096.Idx → EReal) (ix2 0 o)
      = (m ((c : Thread nD τ).loc main_arg5) : S4096.Idx → EReal) (ix1 o) := by
  rw [V2_v3_eq, W1_of_ne m ρ c main_arg5 (by decide)]
  exact reshape_bias_apply _ _ o

/-- The weight the product region reads is the dequantized weight of the launch arguments. -/
theorem V2_weight (c : Dev nD) :
    (V2 (F := Ideal) m ρ c main_v0 : S4096x4096.Idx → EReal)
      = fun j => weight (m ((c : Thread nD τ).loc main_arg1)) (m ((c : Thread nD τ).loc main_arg2)) (j 0) (j 1) :=
  calc V2 (F := Ideal) m ρ c main_v0
    _ = W1 m ρ c (Proc.devRef .tc main_v0) := StableHlo.after_of_writes_sub hostOps1 _ hostOps1_writes (by decide)
    _ = (Deq.dat (V0 m ρ) c).arrAt 2 cfg0.N := W1_arr m ρ c 2
    _ = _ := Deq.weight_array (V0 m ρ) c

theorem V2_A (c : Dev nD) : V2 (F := Ideal) m ρ c main_arg3 = m ((c : Thread nD τ).loc main_arg3) :=
  calc V2 (F := Ideal) m ρ c main_arg3
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem V2_B (c : Dev nD) : V2 (F := Ideal) m ρ c main_arg4 = m ((c : Thread nD τ).loc main_arg4) :=
  calc V2 (F := Ideal) m ρ c main_arg4
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The result buffer -/

/-- The result buffer: the product region's output array cut back into batches. -/
theorem W4_v5_eq (c : Dev nD) :
    W4 (F := Ideal) m ρ c (Proc.devRef .tc main_v5)
      = shapeCast S4x2048x4096 (W3 m ρ c (Proc.devRef .tc main_v4) : S8192x4096.Idx → Ideal .f32) shapeCasts_S8192x4096_S4x2048x4096 := by
  show StableHlo.after hostOps2 (W3 m ρ c) (Proc.devRef .tc main_v5) = _
  after_results
  rfl

theorem W4_out (c : Dev nD) (b : Fin 4) (t : Fin 2048) (o : Fin 4096) :
    (W4 (F := Ideal) m ρ c (Proc.devRef .tc main_v5) : S4x2048x4096.Idx → EReal) (ix3 b t o)
      = ((Acc.dat (F := Ideal) (V2 m ρ) c).arrAt 5 cfg1.N : S8192x4096.Idx → EReal) (ix2 (row b t) o) := by
  rw [W4_v5_eq, W3_arr m ρ c 5]
  exact reshape_batch_apply _ _ b t o

/-- The result buffer holds the layer's output, given the product region's output array in its blocked form. -/
theorem result_value (c : Dev nD)
    (hout : (Acc.dat (F := Ideal) (V2 m ρ) c).arrAt 5 cfg1.N
      = fun j => kernelOut (V2 m ρ c main_v2) (V2 m ρ c main_v0) (V2 m ρ c main_arg3) (V2 m ρ c main_arg4) (V2 m ρ c main_v3) (j 0) (j 1)) :
    W4 (F := Ideal) m ρ c (Proc.devRef .tc main_v5)
      = fun j => result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (j 0) (j 1) (j 2) := by
  funext j
  obtain ⟨b, t, o, rfl⟩ : ∃ (b : Fin 4) (t : Fin 2048) (o : Fin 4096), j = ix3 b t o := ⟨j 0, j 1, j 2, eq_ix3 j⟩
  rw [W4_out, hout, V2_A, V2_B]
  exact kernelOut_eq_result _ _ _ _ _ _ _ _ _ b t o (fun u => V2_x m ρ c b t u)
    (fun u => congrFun (V2_weight m ρ c) (ix2 o u)) (V2_bias m ρ c o)

end Cert.KernelIdeal.Hand

end
-- ==== Proof.ValRef.lean ====
/-
  The reference program's result is the layer's output function.

  Read at the entry (b, t, o), stage by stage: the repeated scales, reshaped from [4096, 64, 64] to [4096, 4096], read
  at (o, u) the scale s(o, u / 64) -- the entry's row-major position o * 4096 + u is ((o * 64) + u / 64) * 64 + u % 64 --
  so the dequantized weight at (o, u) is the stored integer, read signed, times its block's scale.  The first product
  contracts the input features: sum_u x(b,t,u) * weight(o,u).  The bias is broadcast along b and t.  The low-rank path
  is two products, sum_r (sum_u x(b,t,u) * A(r,u)) * B(o,r), times the constant word 0x40000000 (two), on the right.
-/
import proofs.«122666_j40604620816621_2_alg».proof.Proof.Gen.ReferenceIdeal.Read
import proofs.«122666_j40604620816621_2_alg».proof.Proof.Spec

noncomputable section

namespace Cert.QLora

open Cert.ReferenceIdeal Cert.ReferenceIdeal.Read Idealize.ShloMosaic Idealize.ShloMosaic.ValueIdx

/-! ## The index maps of the stages, at an index given by its coordinates -/

/-- The repeated-and-reshaped scales read entry (o, u) of the [4096, 4096] array at (o, u / 64) of the scales. -/
theorem idx_scale (o u : Fin 4096) : idx_main_v0 (idx_main_v1 (ix2 o u)) = ix2 o (blockOf u) := by
  have ho := o.isLt
  have hu := u.isLt
  funext a
  match a with
  | ⟨0, _⟩ =>
    apply Fin.ext
    show (o.val * 4096 + u.val) / 4096 = o.val
    omega
  | ⟨1, _⟩ =>
    apply Fin.ext
    show (o.val * 4096 + u.val) / 64 % 64 = u.val / 64
    omega

/-- The first product's left operand at output (b, t, o) and input feature u is x(b, t, u). -/
theorem lidx_base (b : Fin 4) (t : Fin 2048) (o u : Fin 4096) : lidx_main_v4 (ix3 b t o) u = ix3 b t u := by
  funext a
  match a with
  | ⟨0, _⟩ => rfl
  | ⟨1, _⟩ => rfl
  | ⟨2, _⟩ => rfl

/-- Its right operand is the weight at (o, u). -/
theorem ridx_base (b : Fin 4) (t : Fin 2048) (o u : Fin 4096) : ridx_main_v4 (ix3 b t o) u = ix2 o u := by
  funext a
  match a with
  | ⟨0, _⟩ => rfl
  | ⟨1, _⟩ => rfl

/-- The bias broadcast along b and t reads entry o of the bias. -/
theorem idx_bias (b : Fin 4) (t : Fin 2048) (o : Fin 4096) : idx_main_v5 (idx_main_v6 (ix3 b t o)) = ix1 o := by
  funext a
  match a with
  | ⟨0, _⟩ => rfl

/-- The projection's left operand at output (b, t, r) and input feature u is x(b, t, u). -/
theorem lidx_down (b : Fin 4) (t : Fin 2048) (r : Fin 16) (u : Fin 4096) : lidx_main_v8 (ix3 b t r) u = ix3 b t u := by
  funext a
  match a with
  | ⟨0, _⟩ => rfl
  | ⟨1, _⟩ => rfl
  | ⟨2, _⟩ => rfl

/-- Its right operand is A at (r, u). -/
theorem ridx_down (b : Fin 4) (t : Fin 2048) (r : Fin 16) (u : Fin 4096) : ridx_main_v8 (ix3 b t r) u = ix2 r u := by
  funext a
  match a with
  | ⟨0, _⟩ => rfl
  | ⟨1, _⟩ => rfl

/-- The expansion's left operand at output (b, t, o) and direction r is the projection at (b, t, r). -/
theorem lidx_up (b : Fin 4) (t : Fin 2048) (o : Fin 4096) (r : Fin 16) : lidx_main_v9 (ix3 b t o) r = ix3 b t r := by
  funext a
  match a with
  | ⟨0, _⟩ => rfl
  | ⟨1, _⟩ => rfl
  | ⟨2, _⟩ => rfl

/-- Its right operand is B at (o, r). -/
theorem ridx_up (b : Fin 4) (t : Fin 2048) (o : Fin 4096) (r : Fin 16) : ridx_main_v9 (ix3 b t o) r = ix2 o r := by
  funext a
  match a with
  | ⟨0, _⟩ => rfl
  | ⟨1, _⟩ => rfl

/-! ## The stages at an entry -/

/-- The dequantized weight stage at (o, u) is the weight. -/
theorem ref_weight (q : (⟨S4096x4096, .i32⟩ : BufTy).Contents (Elt Ideal)) (s : (⟨S4096x64, .f32⟩ : BufTy).Contents (Elt Ideal))
    (o u : Fin 4096) : val_main_v3 (F := Ideal) q s (ix2 o u) = weight q s o u := by
  rw [val_main_v3_apply, val_main_v2_apply, val_main_v1_apply, val_main_v0_apply, idx_scale]
  rfl

/-- The first product at (b, t, o). -/
theorem ref_base (x : (⟨S4x2048x4096, .f32⟩ : BufTy).Contents (Elt Ideal)) (q : (⟨S4096x4096, .i32⟩ : BufTy).Contents (Elt Ideal))
    (s : (⟨S4096x64, .f32⟩ : BufTy).Contents (Elt Ideal)) (b : Fin 4) (t : Fin 2048) (o : Fin 4096) :
    val_main_v4 (F := Ideal) x q s (ix3 b t o) = ∑ u : Fin 4096, x (ix3 b t u) * weight q s o u := by
  rw [val_main_v4_apply]
  refine Finset.sum_congr rfl fun u _ => ?_
  rw [lidx_base, ridx_base, ref_weight]

/-- The broadcast bias at (b, t, o). -/
theorem ref_bias (β : (⟨S4096, .f32⟩ : BufTy).Contents (Elt Ideal)) (b : Fin 4) (t : Fin 2048) (o : Fin 4096) :
    val_main_v6 (F := Ideal) β (ix3 b t o) = β (ix1 o) := by
  rw [val_main_v6_apply, val_main_v5_apply, idx_bias]

/-- The projection onto the low-rank directions at (b, t, r). -/
theorem ref_down (x : (⟨S4x2048x4096, .f32⟩ : BufTy).Contents (Elt Ideal)) (A : (⟨S16x4096, .f32⟩ : BufTy).Contents (Elt Ideal))
    (b : Fin 4) (t : Fin 2048) (r : Fin 16) :
    val_main_v8 (F := Ideal) x A (ix3 b t r) = ∑ u : Fin 4096, x (ix3 b t u) * A (ix2 r u) := by
  rw [val_main_v8_apply]
  refine Finset.sum_congr rfl fun u _ => ?_
  rw [lidx_down, ridx_down]

/-- The low-rank path at (b, t, o), before the constant factor. -/
theorem ref_up (x : (⟨S4x2048x4096, .f32⟩ : BufTy).Contents (Elt Ideal)) (A : (⟨S16x4096, .f32⟩ : BufTy).Contents (Elt Ideal))
    (B : (⟨S4096x16, .f32⟩ : BufTy).Contents (Elt Ideal)) (b : Fin 4) (t : Fin 2048) (o : Fin 4096) :
    val_main_v9 (F := Ideal) x A B (ix3 b t o)
      = ∑ r : Fin 16, (∑ u : Fin 4096, x (ix3 b t u) * A (ix2 r u)) * B (ix2 o r) := by
  rw [val_main_v9_apply]
  refine Finset.sum_congr rfl fun r _ => ?_
  rw [lidx_up, ridx_up, ref_down]

/-- The constant factor, at every entry, is the word two. -/
theorem ref_two (i : S4x2048x4096.Idx) : val_main_v10 (F := Ideal) i = two := by
  rw [val_main_v10_apply, val_main_cst_apply]
  rfl

/-! ## The result -/

/-- The reference program's result array is the layer's output function. -/
theorem ref_result (x : (⟨S4x2048x4096, .f32⟩ : BufTy).Contents (Elt Ideal)) (q : (⟨S4096x4096, .i32⟩ : BufTy).Contents (Elt Ideal))
    (s : (⟨S4096x64, .f32⟩ : BufTy).Contents (Elt Ideal)) (A : (⟨S16x4096, .f32⟩ : BufTy).Contents (Elt Ideal))
    (B : (⟨S4096x16, .f32⟩ : BufTy).Contents (Elt Ideal)) (β : (⟨S4096, .f32⟩ : BufTy).Contents (Elt Ideal)) :
    val_main_v12 (F := Ideal) x q s A B β = fun j => result x q s A B β (j 0) (j 1) (j 2) := by
  funext j
  obtain ⟨b, t, o, rfl⟩ : ∃ (b : Fin 4) (t : Fin 2048) (o : Fin 4096), j = ix3 b t o := ⟨j 0, j 1, j 2, eq_ix3 j⟩
  rw [val_main_v12_apply, val_main_v7_apply, val_main_v11_apply, ref_base, ref_bias, ref_up, ref_two]
  rfl

end Cert.QLora

end
-- ==== Proof.lean ====
/-
  The certificate of a quantized low-rank-adapted linear layer.

  Both programs compute, at batch b, position t and output feature o,

      ( sum_u x(b,t,u) * weight(o,u) + bias(o) ) + ( sum_r ( sum_u x(b,t,u) * A(r,u) ) * B(o,r) ) * 2,

  where weight(o,u) is the stored integer read signed times the scale of the block of 64 input features that
  u lies in.  The kernel computes it in two regions: the first writes the whole weight array block of rows by
  block of rows; the second walks a 4 x 4 x 4 grid, keeps the product and the low-rank activation in two
  accumulators over the innermost coordinate, 1024 input features at a time, and stores each output block at
  the last of its four points.  The reference is one chain of whole-array operations.  Over the extended
  reals the two differ only by the grouping of the sums over u (four blocks from zero against one sum) and by
  the order of the product with two, so no entry needs to be finite and the precondition is never opened.

  The frames: each of the kernel's two regions is run on its staged blocks (the dequantizing region writes one
  whole block per point; the product region's invariant carries what the two accumulators hold from one point
  to the next), and the whole program is four segments around them; the argument is the same at the word level
  and over the extended reals.  The reference's frame is its run with the result dropped.  The idealization
  rewrote nothing, so there is nothing to preserve.
-/
import proofs.«122666_j40604620816621_2_alg».proof.Defs
import proofs.«122666_j40604620816621_2_alg».proof.Proof.Gen.Kernel
import proofs.«122666_j40604620816621_2_alg».proof.Proof.Gen.KernelIdeal
import proofs.«122666_j40604620816621_2_alg».proof.Proof.Gen.ReferenceIdeal
import proofs.«122666_j40604620816621_2_alg».proof.Proof.Gen.ReferenceIdeal.Run
import proofs.«122666_j40604620816621_2_alg».proof.Proof.Gen.ReferenceIdeal.Read
import proofs.«122666_j40604620816621_2_alg».proof.Proof.Gen.Pre_finite_inputs
import proofs.«122666_j40604620816621_2_alg».proof.Proof.RunFrame
import proofs.«122666_j40604620816621_2_alg».proof.Proof.RunFrameBits
import proofs.«122666_j40604620816621_2_alg».proof.Proof.AccValue
import proofs.«122666_j40604620816621_2_alg».proof.Proof.ValHost
import proofs.«122666_j40604620816621_2_alg».proof.Proof.ValRef
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel [Cert.Kernel.Facts] [Cert.Pre_finite_inputs.Facts] : Cert.frame_Kernel :=
  fun m ρ _ => Cert.Kernel.Hand.frame (F := Bits) m ρ

/-- So does the idealized program. -/
theorem frame_kernelIdeal [Cert.KernelIdeal.Facts] [Cert.Pre_finite_inputs.Facts] : Cert.frame_KernelIdeal :=
  fun m ρ _ => Cert.KernelIdeal.Hand.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs end with the layer's output, entry by
    entry: the kernel's result buffer is read off the last valuation of its run, the reference's off its
    generated run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun j => Cert.QLora.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (j 0) (j 1) (j 2), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v5 (by decide))).trans (Cert.KernelIdeal.Hand.result_value m ρ c (Cert.KernelIdeal.Acc.out_value (Cert.KernelIdeal.Hand.V2 m ρ) c)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v12_eq, Cert.QLora.ref_result,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
